-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg0 main_v4
  let main_c_1 : IVec S_ 32 := constantI S_ 32 99999#32
  let main_v6 : IVec S4096 32 := broadcastInDim S4096 ![] bcast_S_S4096 main_c_1
  let main_v7 : IVec S4096 1 := cmpi .sle main_arg0 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096 : Shape := ⟨1, ![4096]⟩
abbrev S100001x128 : Shape := ⟨2, ![100001, 128]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S64x128 : Shape := ⟨2, ![64, 128]⟩
abbrev S64 : Shape := ⟨1, ![64]⟩

abbrev nBuf : Table → Nat
  | .hbm => 3
  | .local .scVector .vmem => 2
  | _ => 0

abbrev bufTy : (tb : Table) → Fin (nBuf tb) → BufTy
  | .hbm, ⟨0, _⟩ => ⟨S4096, .i32⟩
  | .hbm, ⟨1, _⟩ => ⟨S100001x128, .f32⟩
  | .hbm, ⟨2, _⟩ => ⟨S4096x128, .f32⟩
  | .local .scVector .vmem, ⟨0, _⟩ => ⟨S128, .i32⟩
  | .local .scVector .vmem, ⟨1, _⟩ => ⟨S128x128, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_15 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_24 : BitVec 32 := 64#32
  let v19 : BitVec 32 := Scalar.addi v2 c64_i32_24
  let c0_i32_27 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S128x128_S64x128_0_0 : ∀ a, (![0, 0] : Fin 2 → Nat) a + S64x128.size a ≤ S128x128.size a
  inb_S128_S64_0 : ∀ a, (![0] : Fin 1 → Nat) a + S64.size a ≤ S128.size a
  inb_S100001x128_S100001x128_0_0 : ∀ a, (![0, 0] : Fin 2 → Nat) a + S100001x128.size a ≤ S100001x128.size a
  gathers_S100001x128_S64x128 : S100001x128.Gathers 0 S64x128
  inb_S128x128_S64x128_64_0 : ∀ a, (![64, 0] : Fin 2 → Nat) a + S64x128.size a ≤ S128x128.size a
  inb_S128_S64_64 : ∀ a, (![64] : Fin 1 → Nat) a + S64.size a ≤ S128.size a
  hcc0_scratch2 : 0 + S_.numel ≤ 4
  hcc0_scratch3 : 1 + S_.numel ≤ 4
  hcc0_scratch4 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ a, (k0_off2 i) a + S64x128.size a ≤ S4096x128.size a
  k0_off3_inb : ∀ i : grid0.Coords, ∀ a, (k0_off3 i) a + S64x128.size a ≤ S4096x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scoped0 : DmaSems sig S_ := SemArray.consecutive 3 S_ hcc0_scoped0

class Facts : Prop extends Facts₀ where

variable [Facts]
-- ==== ReferenceIdeal.lean ====
abbrev S4096 : Shape := ⟨1, ![4096]⟩
abbrev S100001x128 : Shape := ⟨2, ![100001, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096, .i32⟩
  | .hbm, ⟨1, _⟩ => ⟨S100001x128, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4096x128, .f32⟩
  | .hbm, ⟨21, _⟩ => ⟨S4096x128, .i1⟩
  | .hbm, ⟨22, _⟩ => ⟨S_, .f32⟩
  | .hbm, ⟨23, _⟩ => ⟨S4096x128, .f32⟩
  | .hbm, ⟨24, _⟩ => ⟨S4096x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  gather_S100001x128_S4096x1_S4096x128_1_0_n_n_0_1_1128_wf : GatherDims.WF S100001x128 S4096x1 S4096x128 [1] [0] [] [0] [] 1 ![1, 128]

variable [Facts₀]

def gather_S100001x128_S4096x1_S4096x128_1_0_n_n_0_1_1128 : GatherDims S100001x128 S4096x1 S4096x128 where
  offsetDims := [1]
  collapsedSliceDims := [0]
  operandBatchingDims := []
  startIndicesBatchingDims := []
  startIndexMap := [0]
  indexVectorDim := 1
  sliceSizes := ![1, 128]
  wf := gather_S100001x128_S4096x1_S4096x128_1_0_n_n_0_1_1128_wf

class Facts : Prop extends Facts₀ where

variable [Facts]
-- ==== Proof.Spec.lean ====
/-
  The function both programs compute. The inputs are a vector of 4096 row numbers (32-bit words) and a
  table of 100001 rows of 128 entries; the result has 4096 rows, and row `r` of the result is row
  `idx[r]` of the table, entry by entry. Nothing is computed on the entries: the statement is an
  equation between indices, and it holds at every instance of the floats.

  The row number is read as an unsigned word and reduced modulo the table's extent only to make the
  function total; `InRange` says every row number is below the extent, where the reduction is the identity.
-/
import Idealize.ShloMosaic.Lib.ValueIdx

namespace Cert.Spec

open Idealize.ShloMosaic Idealize.ShloMosaic.ValueIdx

abbrev SIdx : Shape := ⟨1, ![4096]⟩
abbrev STab : Shape := ⟨2, ![100001, 128]⟩
abbrev SOut : Shape := ⟨2, ![4096, 128]⟩

/-- The table's row a 32-bit row number names. -/
def rowOf (w : BitVec 32) : Fin 100001 := ⟨w.toNat % 100001, Nat.mod_lt _ (by norm_num)⟩

theorem rowOf_val_of_lt {w : BitVec 32} (h : w.toNat < 100001) : (rowOf w).val = w.toNat := Nat.mod_eq_of_lt h

/-- Row `r` of the result is row `idx[r]` of the table. -/
def rowGather {α : Type} (idx : SIdx.Idx → BitVec 32) (tab : STab.Idx → α) : SOut.Idx → α :=
  fun j => tab (ix2 (rowOf (idx (ix1 (n := 4096) (j 0)))) (n1 := 128) (j 1))

theorem rowGather_apply {α : Type} (idx : SIdx.Idx → BitVec 32) (tab : STab.Idx → α) (r : Fin 4096) (l : Fin 128) :
    rowGather idx tab (ix2 r l) = tab (ix2 (rowOf (idx (ix1 r))) l) := rfl

/-- Every row number names a row of the table. -/
def InRange (idx : SIdx.Idx → BitVec 32) : Prop := ∀ k, (idx k).toNat < 100001

end Cert.Spec
-- ==== Proof.PreRange.lean ====
/-
  The precondition's integer half, read back. The printed predicate ends in the conjunction of two
  reductions by `and` from 1; the second reduces, over all 4096 positions, the one-bit word
  `0 ≤ idx[k] ∧ idx[k] ≤ 99999` (both comparisons signed). The predicate being 1 therefore says that
  every row number, read as a signed word, lies between 0 and 99999. A signed word in that interval
  reads the same unsigned, so it is below the table's extent 100001. The float half of the predicate
  (every table entry finite) is not used.
-/
import proofs.«217002_g82145544504098_cont_9to1_m_222_7_alg».proof.Pre_input_domain
import proofs.«217002_g82145544504098_cont_9to1_m_222_7_alg».proof.Proof.Gen.Pre_input_domain
import proofs.«217002_g82145544504098_cont_9to1_m_222_7_alg».proof.Proof.Spec
import Idealize.ShloMosaic.Lib.ReduceAll

namespace Cert.PreRange

open Idealize.ShloMosaic Idealize.ShloMosaic.ValueIdx

/-- The rank-0 shape has one index. -/
instance : Subsingleton Cert.Pre_input_domain.S_.Idx := ⟨fun a b => funext fun d => d.elim0⟩

/-- A 32-bit word between 0 and 99999 as a signed number is below 100001 as an unsigned one. -/
theorem toNat_lt_of_signed_bounds {w : BitVec 32} (h0 : (0#32 : BitVec 32).toInt ≤ w.toInt)
    (h1 : w.toInt ≤ (99999#32 : BitVec 32).toInt) : w.toNat < 100001 := by
  rw [show (0#32 : BitVec 32).toInt = 0 from by decide] at h0
  rw [show (99999#32 : BitVec 32).toInt = 99999 from by decide] at h1
  have := BitVec.toInt_eq_toNat_cond w
  split at this <;> omega

/-- Where the precondition holds, every row number names a row of the table. -/
theorem inRange_of_pre {F : FTy → Type} [FloatOps F] [hP : Cert.Pre_input_domain.Facts]
    (a0 : IVec Cert.Pre_input_domain.S4096 32) (a1 : FVec F Cert.Pre_input_domain.S100001x128 .f32)
    (h : Cert.Pre_input_domain.fn (F := F) a0 a1 = fun _ => 1#1) : Cert.Spec.InRange a0 := by
  intro k
  have h0 := congrFun h ValueIdx.ix0
  dsimp only [Cert.Pre_input_domain.fn] at h0
  -- the conjunction's second half: the reduction over the row numbers is 1
  have h1 := (IntOp.andi_eq_one.1 h0).2
  -- so the reduced word is 1 at every position
  have h2 := Host.reduce_andi_all _ _ _ _ _ h1 k
  obtain ⟨hge, hle⟩ := IntOp.andi_eq_one.1 h2
  exact toNat_lt_of_signed_bounds (IntOp.cmpi_sge.1 hge) (IntOp.cmpi_sle.1 hle)

end Cert.PreRange
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«217002_g82145544504098_cont_9to1_m_222_7_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibAllTrue.lean ====
/-
  All-true masks, and signed index words in a range.

  A reduction by `and` over one-bit words that starts from 1 and meets only 1s is 1 (the converse of reading a
  printed `all` back). For a 32-bit index word read signed: a nonnegative word is left alone by the
  wrap "add the extent where negative", and a word below an extent is at most the extent's predecessor.
-/
import Idealize.ShloMosaic.Lib.ReduceAll

namespace Cert.Lib.AllTrue

open Idealize.ShloMosaic

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi (1#1) (1#1) = 1#1 from by decide]
    exact ih fun n hn => h n (List.mem_cons_of_mem _ hn)

/-- A reduction by `and`, from an initial 1, of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A nonnegative index word is not wrapped. -/
theorem wrap_of_nonneg {x y : BitVec 32} (h0 : IntOp.cmpi .sge x 0#32 = 1#1) :
    Scalar.select (IntOp.cmpi .slt x 0#32) y x = x := by
  unfold Scalar.select
  rw [if_neg]
  intro h
  have h1 := IntOp.cmpi_slt.1 h
  have h2 := IntOp.cmpi_sge.1 h0
  omega

/-- Below 253952 is at most 253951. -/
theorem sle_pred {x : BitVec 32} (h : IntOp.cmpi .slt x 253952#32 = 1#1) : IntOp.cmpi .sle x 253951#32 = 1#1 := by
  rw [IntOp.cmpi_sle]
  have h1 := IntOp.cmpi_slt.1 h
  have e1 : (253952#32 : BitVec 32).toInt = 253952 := by decide
  have e2 : (253951#32 : BitVec 32).toInt = 253951 := by decide
  omega

end Cert.Lib.AllTrue
-- ==== Proof.RefTerm.lean ====
/-
  The reference's result as one term of its two arguments, and what that term is.

  The reference takes rows of a table: it first wraps a negative row number by adding the extent 100001,
  makes the wrapped numbers a one-column matrix, computes for each position the one-bit word
  "0 ≤ number ≤ 100000" reduced by `and` along the column axis (a mask), gathers the rows (the gather
  clamps its row number into [0, 100000]), and finally keeps the gathered row where the mask is 1 and
  writes a NaN elsewhere.

  Where every row number, read unsigned, is below 100001: a number is nonnegative as a signed word, so
  the wrap leaves it alone; it lies in [0, 100000], so the mask is 1 everywhere and the clamp is the
  identity; hence entry (r, l) of the result is entry (idx[r], l) of the table. No operation is applied
  to the table's entries, so this holds for every interpretation of the floats.
-/
import proofs.«217002_g82145544504098_cont_9to1_m_222_7_alg».proof.ReferenceIdeal
import proofs.«217002_g82145544504098_cont_9to1_m_222_7_alg».proof.Proof.Spec
import proofs.«217002_g82145544504098_cont_9to1_m_222_7_alg».proof.Proof.LibRowGatherDims
import proofs.«217002_g82145544504098_cont_9to1_m_222_7_alg».proof.Proof.LibAllTrue
import Idealize.ShloMosaic.Lib.ValueIdx
import Idealize.ShloMosaic.Lib.Pipeline.Value

noncomputable section

namespace Cert.ReferenceIdeal.RefValue

open Cert.ReferenceIdeal Cert.ReferenceIdeal.Facts₀ Idealize.ShloMosaic Idealize.ShloMosaic.ValueIdx

variable {F : FTy → Type} [FloatOps F] [Facts]

/-! ## The term -/

/-- The row numbers, a negative one wrapped by the extent. -/
def wrapped (idx : IVec S4096 32) : IVec S4096 32 :=
  select (cmpi .slt idx (broadcastInDim S4096 ![] bcast_S_S4096 (constantI S_ 32 0#32)))
    (addi idx (broadcastInDim S4096 ![] bcast_S_S4096 (constantI S_ 32 100001#32))) idx

/-- The wrapped row numbers as a matrix of one column. -/
def column (idx : IVec S4096 32) : IVec S4096x1 32 :=
  broadcastInDim S4096x1 ![0] bcast_S4096_S4096x1_0 (wrapped idx)

/-- Position by position: is the wrapped row number in [0, 100000]? -/
def mask (idx : IVec S4096 32) : IVec S4096 1 :=
  Host.reduce IntOp.andi
    (andi (cmpi .sge (column idx) (broadcastInDim S4096x1 ![] bcast_S_S4096x1 (constantI S_ 32 0#32)))
      (cmpi .sle (column idx)
        (broadcastInDim S4096x1 ![0, 1] bcast_S1x1_S4096x1_0_1
          (broadcastInDim S1x1 ![1] bcast_S1_S1x1_1 (constantI S1 32 100000#32)))))
    (constantI S_ 1 1#1) reducesTo_S4096x1_S4096_d1 h_S_

/-- The reference's result: the gathered rows where the mask is 1, a NaN elsewhere. -/
def take (idx : IVec S4096 32) (tab : FVec F S100001x128 .f32) : FVec F S4096x128 .f32 :=
  select (broadcastInDim S4096x128 ![0] bcast_S4096_S4096x128_0 (mask idx))
    (Host.gather gather_S100001x128_S4096x1_S4096x128_1_0_n_n_0_1_1128 tab (column idx))
    (broadcastInDim S4096x128 ![] bcast_S_S4096x128 (constant S_ .f32 0x7FC00000#32))

/-! ## Its value where the row numbers are in range -/

/-- A word below 100001 unsigned is the same number signed. -/
theorem toInt_of_lt {w : BitVec 32} (h : w.toNat < 100001) : w.toInt = (w.toNat : Int) :=
  BitVec.toInt_eq_toNat_of_lt (by omega)

theorem wrapped_apply (idx : IVec S4096 32) (h : Cert.Spec.InRange idx) (k : S4096.Idx) : wrapped idx k = idx k := by
  refine Cert.Lib.AllTrue.wrap_of_nonneg (IntOp.cmpi_sge.2 ?_)
  rw [toInt_of_lt (h k), show (0#32 : BitVec 32).toInt = 0 from by decide]
  exact Int.natCast_nonneg _

theorem column_apply (idx : IVec S4096 32) (h : Cert.Spec.InRange idx) (e : Fin 4096) (z : Fin 1) :
    column idx (ix2 e z) = idx (ix1 e) := by
  unfold column
  rw [broadcastInDim_apply _ _ _ (ix2 e z) (ix1 e) (fun a => match a with | ⟨0, _⟩ => rfl)]
  exact wrapped_apply idx h _

theorem mask_apply (idx : IVec S4096 32) (h : Cert.Spec.InRange idx) (k : S4096.Idx) : mask idx k = 1#1 := by
  refine Cert.Lib.AllTrue.reduce_andi_one _ _ _ _ k rfl fun i => ?_
  obtain ⟨e, z, rfl⟩ : ∃ (e : Fin 4096) (z : Fin 1), i = ix2 e z := ⟨i 0, i 1, eq_ix2 i⟩
  refine IntOp.andi_eq_one.2 ⟨IntOp.cmpi_sge.2 ?_, IntOp.cmpi_sle.2 ?_⟩
  · rw [column_apply idx h, toInt_of_lt (h _)]
    show (0#32 : BitVec 32).toInt ≤ _
    rw [show (0#32 : BitVec 32).toInt = 0 from by decide]
    exact Int.natCast_nonneg _
  · rw [column_apply idx h, toInt_of_lt (h _)]
    show _ ≤ (100000#32 : BitVec 32).toInt
    rw [show (100000#32 : BitVec 32).toInt = 100000 from by decide]
    have := h (ix1 e)
    omega

/-- Where every row number is below the extent, the reference's result is the table's rows. -/
theorem take_eq_rowGather (idx : IVec S4096 32) (tab : FVec F S100001x128 .f32) (h : Cert.Spec.InRange idx) :
    take idx tab = Cert.Spec.rowGather idx tab := by
  funext j
  obtain ⟨e, c, rfl⟩ : ∃ (e : Fin 4096) (c : Fin 128), j = ix2 e c := ⟨j 0, j 1, eq_ix2 j⟩
  rw [Cert.Spec.rowGather_apply]
  unfold take
  rw [select_apply, broadcastInDim_apply _ _ _ (ix2 e c) (ix1 e) (fun a => match a with | ⟨0, _⟩ => rfl),
    mask_apply idx h, select_one]
  rw [Cert.Lib.HostIndex.hostGather_rows_apply (N := 100001) (R := 4096) (C := 128) (by norm_num)
    gather_S100001x128_S4096x1_S4096x128_1_0_n_n_0_1_1128 rfl rfl rfl rfl rfl rfl rfl tab (column idx) e c]
  congr 2
  apply Fin.ext
  show min (column idx (ix2 e 0)).toInt.toNat (100001 - 1) = (idx (ix1 e)).toNat % 100001
  rw [column_apply idx h, toInt_of_lt (h _)]
  have := h (ix1 e)
  show min ((idx (ix1 e)).toNat : Int).toNat (100001 - 1) = (idx (ix1 e)).toNat % 100001
  rw [Int.toNat_natCast, Nat.mod_eq_of_lt this]
  omega

end Cert.ReferenceIdeal.RefValue

end
-- ==== Proof.RefRun.lean ====
/-
  The reference program's run. Its @main is one call of the row-taking function, which calls the
  three-way select once; unfolding the two calls gives a straight line of twenty-three host
  operations, each writing one buffer. Run from any memory with zero counters, every weakly fair
  execution terminates with each buffer at the operations' composed value of the launch contents;
  the result buffer's composed value is the term `take` of the two arguments, and where the row
  numbers are in range that term is the table's rows.
-/
import proofs.«217002_g82145544504098_cont_9to1_m_222_7_alg».proof.Defs
import proofs.«217002_g82145544504098_cont_9to1_m_222_7_alg».proof.Proof.Gen.ReferenceIdeal
import proofs.«217002_g82145544504098_cont_9to1_m_222_7_alg».proof.Proof.Spec
import proofs.«217002_g82145544504098_cont_9to1_m_222_7_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

section Line

variable {F : FTy → Type} [FloatOps F] [Facts]

/-- @main's operations in order, the two calls unfolded: the row-taking function's six operations
    before its call of the select, the select's one, and the sixteen after it, over the call's buffers. -/
abbrev ops : List (HloOp τ sig (Elt F)) :=
  [ TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 100001#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 100000#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S100001x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select ]

set_option maxRecDepth 1024 in
/-- @main is that straight line: the functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The fold at the result buffer is `take` of the two arguments' contents. -/
theorem out_eq (V : Valuation τ sig (Elt F)) :
    after ops V (main_v0 : DevRef τ sig) = take (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- From any memory with zero counters: every weakly fair execution of @main terminates with every
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-- The reference's run where the row numbers are in range: every weakly fair execution of @main
    terminates, the result is the table's rows and the arguments are unchanged. -/
theorem run [hR : Cert.ReferenceIdeal.Facts] (m : (ℓ : Loc Cert.ReferenceIdeal.nD Cert.ReferenceIdeal.τ Cert.ReferenceIdeal.sig) → Buf (Elt Ideal) ℓ) (g : Dev Cert.ReferenceIdeal.nD → PrngReg)
    (hr : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0) = Cert.Spec.rowGather (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v0).trans ((out_eq _).trans (take_eq_rowGather _ _ (hr c))),
      (h c main_arg0).trans (arg0_eq _), (h c main_arg1).trans (arg1_eq _)⟩)
    (run_main (F := Ideal) m g)

end Cert.ReferenceIdeal.RefValue

end
-- ==== Proof.KiSetup.lean ====
/-
  The row gather on the vector subcores: the names the tile's proof and the launch share.

  The result's 4096 rows are cut into 32 blocks of 128 rows; vector subcore `s` of core `c` owns block
  `2 s + c`: it reads that block of the row numbers, gathers the 128 table rows they name into its row
  scratch in two halves of 64, and copies each half out to the matching 64 rows of the result. Every tile
  reads the whole table, so each is dealt a read share of it; the row numbers' block and the result's
  block it owns outright.
-/
import proofs.«217002_g82145544504098_cont_9to1_m_222_7_alg».proof.Defs
import proofs.«217002_g82145544504098_cont_9to1_m_222_7_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«217002_g82145544504098_cont_9to1_m_222_7_alg».proof.Proof.Gen.KernelIdeal
import proofs.«217002_g82145544504098_cont_9to1_m_222_7_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

/-- The model of the separation logic at float instance `F`. -/
abbrev MM (F : FTy → Type) : Type := MT nD τ sig (HIx 1) (Elt F) ℕ UU ℕ

abbrev EH : Emb UH (MM F) := embL

/-! ## The arrays and their blocks -/

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S4096 .i32 := Memref.whole main_arg0_scv
abbrev xV : Memref sig .scVector .hbm S100001x128 .f32 := Memref.whole main_arg1_scv
abbrev oV : Memref sig .scVector .hbm S4096x128 .f32 := Memref.whole main_v0_scv
abbrev sV : Memref sig .scVector .vmem S128 .i32 := Memref.whole cc0_scratch0
abbrev rV : Memref sig .scVector .vmem S128x128 .f32 := Memref.whole cc0_scratch1

theorem idiv : 32 ∣ S4096.size 0 := ⟨128, rfl⟩
theorem odiv : 32 ∣ S4096x128.size 0 := ⟨128, rfl⟩
/-- Block `w` of the row numbers: entries `128 w … 128 w + 127`. -/
abbrev irow (w : Fin 32) : Rect S4096 := Rect.part (s := S4096) (a₀ := 0) idiv w
/-- Block `w` of the result: rows `128 w … 128 w + 127`, whole. -/
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((oV).view.slice (orow w)).set

/-- The block of tile `s` of core `c`. -/
def blk (c : Fin 2) (s : Fin 16) : Fin 32 := ⟨2 * s.val + c.val, by omega⟩

/-- Tile `(c, s)`'s read share of the table: core `c`'s token of the full share, then tile `s`'s token of that. -/
abbrev xq (c : Fin 2) (s : Fin 16) : PosShare TreeShare := Transfers.shareTokN (Transfers.shareTokN fullShare c.val) s.val

end Cert.Proof.KI

end
-- ==== Proof.KiGeom.lean ====
/-
  One tile's geometry: the block of row numbers it reads and the two half-blocks of the result it writes,
  as the task slices them, are the launch's block `2 s + c` and its two halves.
-/
import proofs.«217002_g82145544504098_cont_9to1_m_222_7_alg».proof.Proof.KiSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The tile's block number. -/
abbrev wL (L : grid0.Coords) : Fin 32 := blk (cL L) (sL L)

theorem wL_val : (wL L).val = 2 * (L 1).val + (L 0).val := rfl

/-- The tile's block of the row numbers, and the two halves of its block of the result, as the task slices them. -/
abbrev irowK (L : grid0.Coords) : Rect S4096 := Rect.unit (s := S4096) (k0_off1 L) S128.size (k0_off1_inb L)
abbrev oloK (L : grid0.Coords) : Rect S4096x128 := Rect.unit (s := S4096x128) (k0_off2 L) S64x128.size (k0_off2_inb L)
abbrev ohiK (L : grid0.Coords) : Rect S4096x128 := Rect.unit (s := S4096x128) (k0_off3 L) S64x128.size (k0_off3_inb L)
abbrev iRowK (L : grid0.Coords) : Memref sig .scVector .hbm S128 .i32 := (iV).slice (irowK L) (fun _ => rfl)
abbrev oLoK (L : grid0.Coords) : Memref sig .scVector .hbm S64x128 .f32 := (oV).slice (oloK L) (fun _ => rfl)
abbrev oHiK (L : grid0.Coords) : Memref sig .scVector .hbm S64x128 .f32 := (oV).slice (ohiK L) (fun _ => rfl)

theorem irowK_eq : irowK L = irow (wL L) := by
  unfold irowK irow Rect.part Rect.block
  congr 1 <;> funext a
  · rw [k0_off1_eq]
    match a with
    | 0 => simp [Shape.partIx, Shape.partSize, wL_val]; omega
  · match a with
    | 0 => simp [Shape.partSize]

theorem set_iRowK : (iRowK L).view.set = iRowSet (wL L) := by
  show ((iV).view.slice (irowK L)).set = ((iV).view.slice (irow (wL L))).set
  rw [irowK_eq]

theorem mem_oRowSet (w : Fin 32) (j : S4096x128.Idx) : j ∈ oRowSet w ↔ 128 * w.val ≤ (j 0).val ∧ (j 0).val < 128 * w.val + 128 := by
  show j ∈ ((View.whole (main_v0_scv : Ref sig .scVector)).slice (orow w)).set ↔ _
  rw [View.set_slice_whole, Rect.mem_set_unit]
  constructor
  · intro h
    have := h 0
    simp [Shape.partIx, Shape.partSize] at this
    omega
  · intro h a
    match a with
    | 0 => simp [Shape.partIx, Shape.partSize]; omega
    | 1 => simp [Shape.partIx, Shape.partSize]; exact (j 1).isLt

theorem mem_oLoK (j : S4096x128.Idx) : j ∈ (oLoK L).view.set ↔ 128 * (wL L).val ≤ (j 0).val ∧ (j 0).val < 128 * (wL L).val + 64 := by
  show j ∈ ((View.whole (main_v0_scv : Ref sig .scVector)).slice (oloK L)).set ↔ _
  rw [View.set_slice_whole, Rect.mem_set_unit, k0_off2_eq]
  constructor
  · intro h
    have := h 0
    simp [wL_val] at this ⊢
    omega
  · intro h a
    match a with
    | 0 => simp [wL_val] at h ⊢; omega
    | 1 => simp; exact (j 1).isLt

theorem mem_oHiK (j : S4096x128.Idx) : j ∈ (oHiK L).view.set ↔ 128 * (wL L).val + 64 ≤ (j 0).val ∧ (j 0).val < 128 * (wL L).val + 128 := by
  show j ∈ ((View.whole (main_v0_scv : Ref sig .scVector)).slice (ohiK L)).set ↔ _
  rw [View.set_slice_whole, Rect.mem_set_unit, k0_off3_eq]
  constructor
  · intro h
    have := h 0
    simp [wL_val] at this ⊢
    omega
  · intro h a
    match a with
    | 0 => simp [wL_val] at h ⊢; omega
    | 1 => simp; exact (j 1).isLt

/-- The tile's block of the result is its two halves, -/
theorem oRowSet_halves : oRowSet (wL L) = (oLoK L).view.set ∪ (oHiK L).view.set := by
  ext j
  rw [Finset.mem_union, mem_oRowSet, mem_oLoK, mem_oHiK]
  omega

/-- which share no row. -/
theorem halves_disjoint : Disjoint (oLoK L).view.set (oHiK L).view.set := by
  rw [Finset.disjoint_left]
  intro j h1 h2
  rw [mem_oLoK] at h1
  rw [mem_oHiK] at h2
  omega

end Tile

end Cert.Proof.KI

end
-- ==== Proof.KiPay.lean ====
/-
  What the handshakes carry. The TensorCore hands each core a read token of the table and, for each of its
  sixteen tiles, that tile's block of the row numbers and of the result; the sequencer hands tile `s` its
  blocks and a read token of the core's token. Each tile brings its blocks back, the result's block now at
  the ONE function of the arguments that the whole result is to hold (`Gd`): row `r` is the table's row the
  r-th row number names. The blocks at that one function join to the whole result at it.
-/
import proofs.«217002_g82145544504098_cont_9to1_m_222_7_alg».proof.Proof.KiSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

/-- The result every device's output array is to hold, as one function of its argument arrays. -/
abbrev Gd (d : Dev nD) : Buf (Elt F) (oLoc d) := Cert.Spec.rowGather (m (iLoc d)) (m (xLoc d))

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev oRowPts (d : Dev nD) (w : Fin 32) (f : Buf (Elt F) (oLoc d)) : sProp 𝕄 := oLoc d ↦[oRowSet w]{fullShare} f
/-- Core `c`'s read token of the table, and tile `(c, s)`'s token of that. -/
abbrev xCorePts (d : Dev nD) (c : Fin 2) : sProp 𝕄 := xLoc d ↦{Transfers.shareTokN fullShare c.val} m (xLoc d)
abbrev xShPts (d : Dev nD) (c : Fin 2) (s : Fin 16) : sProp 𝕄 := xLoc d ↦{xq c s} m (xLoc d)

/-- What tile `(c, s)` is handed, and what it hands back. -/
abbrev goRes (d : Dev nD) (c : Fin 2) (s : Fin 16) : sProp 𝕄 :=
  iprop(iRowPts m d (blk c s) ∗ xShPts m d c s ∗ oRowPts d (blk c s) (m (oLoc d)))
abbrev tdRes (d : Dev nD) (c : Fin 2) (s : Fin 16) : sProp 𝕄 :=
  iprop(iRowPts m d (blk c s) ∗ xShPts m d c s ∗ oRowPts d (blk c s) (Gd m d))
/-- What core `c` is handed, and what it hands back. -/
abbrev stRes (d : Dev nD) (c : Fin 2) : sProp 𝕄 :=
  iprop(xCorePts m d c ∗ bigSep Finset.univ fun s : Fin 16 => iprop(iRowPts m d (blk c s) ∗ oRowPts d (blk c s) (m (oLoc d))))
abbrev dnRes (d : Dev nD) (c : Fin 2) : sProp 𝕄 :=
  iprop(xCorePts m d c ∗ bigSep Finset.univ fun s : Fin 16 => iprop(iRowPts m d (blk c s) ∗ oRowPts d (blk c s) (Gd m d)))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (stRes m d (Fin.cast nCore_zero c)))
  dn q d c := match q with
    | 0 => (inferInstance : BI.Storable (upEmb : UEmb _ 𝕄) (dnRes m d (Fin.cast nCore_zero c)))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KI

end
-- ==== Proof.KiValue.lean ====
/-
  The value one tile leaves in its block of the result.

  The tile's list scratch holds its block of the row numbers: entry `k` is row number `128 w + k` (`w` the
  tile's block). A gather over entries `o … o + 63` of the list puts, at row `y` of its half of the row
  scratch, the table's row named by list entry `o + y`; the two halves are written side by side, so each
  reads back what its own gather put there. Copied out to rows `128 w + o + y` of the result, that is the
  table's row named by row number `128 w + o + y`: the function `Cert.Spec.rowGather` at that row.
-/
import proofs.«217002_g82145544504098_cont_9to1_m_222_7_alg».proof.Proof.KiGeom
import proofs.«217002_g82145544504098_cont_9to1_m_222_7_alg».proof.Proof.KiPay
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx

variable (m : (ℓ : Loc nD τ sig) → Buf (Elt F) ℓ) (d : Dev nD) (L : grid0.Coords)

/-- The two halves of the row scratch, the two halves of the list scratch, and the whole table, as the task slices them. -/
abbrev loR : Rect S128x128 := Rect.unit (s := S128x128) ![0, 0] S64x128.size inb_S128x128_S64x128_0_0
abbrev hiR : Rect S128x128 := Rect.unit (s := S128x128) ![64, 0] S64x128.size inb_S128x128_S64x128_64_0
abbrev lstLoR : Rect S128 := Rect.unit (s := S128) ![0] S64.size inb_S128_S64_0
abbrev lstHiR : Rect S128 := Rect.unit (s := S128) ![64] S64.size inb_S128_S64_64
abbrev xAllR : Rect S100001x128 := Rect.unit (s := S100001x128) ![0, 0] S100001x128.size inb_S100001x128_S100001x128_0_0

/-- The tile's block of the row numbers, as the index fetch lands it in the list scratch. -/
abbrev lstK : S128.Idx → Elt F .i32 := (iRowK L).view.read (Elt F) (m (iLoc d))

theorem lstK_inb (hpre : Cert.Spec.InRange (m (iLoc d))) (k : S128.Idx) : (lstK m d L k).toNat < 100001 := by
  show ((iRowK L).view.read (Elt F) (m (iLoc d)) k).toNat < 100001
  rw [View.read_apply]
  exact hpre _

theorem list_lo_inb (hpre : Cert.Spec.InRange (m (iLoc d))) (fs : Buf (Elt F) ((sV).view.loc (V d (cV L) (jV L)))) (x : S64.Idx) :
    (((sV).slice lstLoR (fun _ => rfl)).view.read (Elt F)
      (View.write (Elt F) (sV).view fs (lstK m d L) Finset.univ) x).toNat < S100001x128.size gathers_S100001x128_S64x128.axis := by
  have e : View.write (Elt F) (sV).view fs (lstK m d L) Finset.univ = lstK m d L := View.write_whole_univ cc0_scratch0 fs (lstK m d L)
  rw [e]
  exact lstK_inb m d L hpre _

theorem list_hi_inb (hpre : Cert.Spec.InRange (m (iLoc d))) (fs : Buf (Elt F) ((sV).view.loc (V d (cV L) (jV L)))) (x : S64.Idx) :
    (((sV).slice lstHiR (fun _ => rfl)).view.read (Elt F)
      (View.write (Elt F) (sV).view fs (lstK m d L) Finset.univ) x).toNat < S100001x128.size gathers_S100001x128_S64x128.axis := by
  have e : View.write (Elt F) (sV).view fs (lstK m d L) Finset.univ = lstK m d L := View.write_whole_univ cc0_scratch0 fs (lstK m d L)
  rw [e]
  exact lstK_inb m d L hpre _

/-! ## The row scratch reads back what each gather put in its half -/

theorem halves_scratch_disjoint : Disjoint (hiR).set (loR).set :=
  Rect.unit_disjoint 0 (Or.inr (by decide))

theorem scratch_hi (fr : Buf (Elt F) ((rV).view.loc (V d (cV L) (jV L)))) (gh gl : S64x128.Idx → Elt F .f32) (y : S64x128.Idx) :
    ((rV).slice hiR (fun _ => rfl)).view.read (Elt F) ((rV).view.writes (Elt F) fr [⟨hiR, gh⟩, ⟨loR, gl⟩]) y = gh y :=
  View.read_writes_cons_emb (rV).view fr hiR gh [⟨loR, gl⟩] y

theorem scratch_lo (fr : Buf (Elt F) ((rV).view.loc (V d (cV L) (jV L)))) (gh gl : S64x128.Idx → Elt F .f32) (y : S64x128.Idx) :
    ((rV).slice loR (fun _ => rfl)).view.read (Elt F) ((rV).view.writes (Elt F) fr [⟨hiR, gh⟩, ⟨loR, gl⟩]) y = gl y := by
  rw [View.writes_swap (rV).view fr ⟨hiR, gh⟩ ⟨loR, gl⟩ [] halves_scratch_disjoint]
  exact View.read_writes_cons_emb (rV).view fr loR gl [⟨hiR, gh⟩] y

/-! ## What a gather over half the list puts in its half of the row scratch -/

theorem rowMajor_symm_val (k : Fin S64.numel) : ((S64.rowMajor.symm k) 0).val = k.val := by
  have h := Shape.rowMajor_val_one (S64.rowMajor.symm k)
  rw [Equiv.apply_symm_apply] at h
  exact h.symm

/-- The list entry a window of the list scratch reads at `x`, the window starting at entry `o`, is row number `128 w + o + x`. -/
theorem list_entry (o : ℕ) (ho : ∀ a, (![o] : Fin 1 → ℕ) a + S64.size a ≤ S128.size a) (x : S64.Idx) (j0 : Fin 4096)
    (hj0 : j0.val = 128 * (wL L).val + o + (x 0).val) :
    ((sV).slice (Rect.unit (s := S128) ![o] S64.size ho) (fun _ => rfl)).view.read (Elt F) (lstK m d L) x = m (iLoc d) (ix1 j0) := by
  show m (iLoc d) _ = m (iLoc d) _
  congr 1
  funext b
  apply Fin.ext
  match b with
  | 0 =>
    show (k0_off1 L) 0 + 1 * (![o] 0 + 1 * (x 0).val) = j0.val
    rw [k0_off1_eq, hj0, wL_val]
    simp
    omega

/-- Entry `y` of a gather over the list's entries `o … o + 63` is the result function at row `128 w + o + y₀`, column `y₁`. -/
theorem gather_value (hpre : Cert.Spec.InRange (m (iLoc d))) (o : ℕ) (ho : ∀ a, (![o] : Fin 1 → ℕ) a + S64.size a ≤ S128.size a)
    (fs : Buf (Elt F) ((sV).view.loc (V d (cV L) (jV L))))
    (hin : ∀ x, (((sV).slice (Rect.unit (s := S128) ![o] S64.size ho) (fun _ => rfl)).view.read (Elt F)
      (View.write (Elt F) (sV).view fs (lstK m d L) Finset.univ) x).toNat < S100001x128.size gathers_S100001x128_S64x128.axis)
    (y : S64x128.Idx) (j : S4096x128.Idx) (hj0 : (j 0).val = 128 * (wL L).val + o + (y 0).val) (hj1 : (j 1).val = (y 1).val) :
    SparseCore.gatherPayload gathers_S100001x128_S64x128 (((xV).slice xAllR (fun _ => rfl)).view.read (Elt F) (m (xLoc d)))
      (SparseCore.rows (((sV).slice (Rect.unit (s := S128) ![o] S64.size ho) (fun _ => rfl)).view.read (Elt F)
        (View.write (Elt F) (sV).view fs (lstK m d L) Finset.univ)) rfl hin) y
      = Gd m d j := by
  have e : View.write (Elt F) (sV).view fs (lstK m d L) Finset.univ = lstK m d L := View.write_whole_univ cc0_scratch0 fs (lstK m d L)
  show m (xLoc d) _ = m (xLoc d) _
  congr 1
  funext b
  apply Fin.ext
  match b with
  | 0 =>
    show (xAllR).off 0 + (xAllR).stride 0 * (gathers_S100001x128_S64x128.idx _ y 0).val = (Cert.Spec.rowOf (m (iLoc d) (ix1 (n := 4096) (j 0)))).val
    rw [Cert.Spec.rowOf_val_of_lt (hpre _)]
    have h0 := congrArg Fin.val (Shape.Gathers.idx_axis gathers_S100001x128_S64x128
      (SparseCore.rows (((sV).slice (Rect.unit (s := S128) ![o] S64.size ho) (fun _ => rfl)).view.read (Elt F)
        (View.write (Elt F) (sV).view fs (lstK m d L) Finset.univ)) rfl hin) y)
    have h1 : (gathers_S100001x128_S64x128.idx (SparseCore.rows (((sV).slice (Rect.unit (s := S128) ![o] S64.size ho) (fun _ => rfl)).view.read (Elt F)
        (View.write (Elt F) (sV).view fs (lstK m d L) Finset.univ)) rfl hin) y 0).val
        = (((sV).slice (Rect.unit (s := S128) ![o] S64.size ho) (fun _ => rfl)).view.read (Elt F)
            (View.write (Elt F) (sV).view fs (lstK m d L) Finset.univ) (S64.rowMajor.symm ((y gathers_S100001x128_S64x128.axis').cast rfl))).toNat := h0
    rw [h1, e]
    rw [list_entry m d L o ho _ (j 0) (by rw [hj0, rowMajor_symm_val]; rfl)]
    simp
  | 1 =>
    show (xAllR).off 1 + (xAllR).stride 1 * (gathers_S100001x128_S64x128.idx _ y 1).val = (j 1).val
    rw [Shape.Gathers.idx_of_ne gathers_S100001x128_S64x128 _ y 1 (by decide), hj1]
    simp

end Cert.Proof.KI

end
-- ==== Proof.KiTile.lean ====
/-
  One tile's task, proved once at a symbolic tile. Handed its block of the row numbers, a read token of the
  table and its block of the result, the tile fetches the row numbers into its list scratch, issues the two
  gathers (each on its own semaphore, each reading the table through half of the token), waits for the first
  and starts copying its half out, waits for the second and starts copying that half out (the two copies on
  one semaphore: a batch of two, drained by the two waits that follow, nothing touching their ends in
  between), and ends holding its block of the result at the result function `Gd`.
-/
import proofs.«217002_g82145544504098_cont_9to1_m_222_7_alg».proof.Proof.KiValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx

local notation "𝕄" => MM F

variable (m : (ℓ : Loc nD τ sig) → Buf (Elt F) ℓ)

section Tile

variable (d : Dev nD) (L : grid0.Coords)

abbrev cell (d : Dev nD) (c : Fin τ.nSC) (i : Fin τ.nSub) (sm : DmaSems sig S_) : GSem nD τ sig := (V d c i, .dma sm.sem)

theorem pts_iRowK (q : PosShare TreeShare) (f : Buf (Elt F) (iLoc d)) :
    ((iRowK L).view.loc (V d (cV L) (jV L)) ↦[(iRowK L).view.set]{q} f : sProp 𝕄) = iLoc d ↦[iRowSet (wL L)]{q} f := by
  rw [set_iRowK]
theorem pts_oLoK (f : Buf (Elt F) (oLoc d)) :
    ((oLoK L).view.loc (V d (cV L) (jV L)) ↦[(oLoK L).view.set]{fullShare} f : sProp 𝕄) = oLoc d ↦[(oLoK L).view.set]{fullShare} f := rfl
theorem pts_oHiK (f : Buf (Elt F) (oLoc d)) :
    ((oHiK L).view.loc (V d (cV L) (jV L)) ↦[(oHiK L).view.set]{fullShare} f : sProp 𝕄) = oLoc d ↦[(oHiK L).view.set]{fullShare} f := rfl
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's block of the result is held as its two halves. -/
theorem oRow_halves (f : Buf (Elt F) (oLoc d)) :
    (oRowPts d (wL L) f : sProp 𝕄) ⊣⊢ iprop((oLoc d ↦[(oLoK L).view.set]{fullShare} f) ∗ oLoc d ↦[(oHiK L).view.set]{fullShare} f) := by
  unfold oRowPts
  rw [oRowSet_halves]
  exact pointsTo_union (halves_disjoint L)

/-- The vector subcore's four DMA semaphores are among its own cells. -/
theorem ownSems0_V :
    (ownSems0 (V d (cV L) (jV L)) : sProp 𝕄)
      = iprop(semVal (cell d (cV L) (jV L) cc0_scratch2) 0 ∗ semVal (cell d (cV L) (jV L) cc0_scratch3) 0
          ∗ semVal (cell d (cV L) (jV L) cc0_scratch4) 0 ∗ semVal (cell d (cV L) (jV L) cc0_scoped0) 0
          ∗ bigSep (((((ownCells (V d (cV L) (jV L))).erase (cell d (cV L) (jV L) cc0_scratch2)).erase (cell d (cV L) (jV L) cc0_scratch3)).erase
              (cell d (cV L) (jV L) cc0_scratch4)).erase (cell d (cV L) (jV L) cc0_scoped0)) fun g => semVal g 0) := by
  unfold SparseCore.Cfg.ownSems0
  rw [SparseCore.bigSep_erase' ((mem_ownCells (g := cell d (cV L) (jV L) cc0_scratch2)).mpr ⟨rfl, by
      show (SemLoc.dma cc0_scratch2.sem : SemLoc sig).isScoped .scVector = true; decide⟩),
    SparseCore.bigSep_erase' (Finset.mem_erase.mpr ⟨by simp [cell]; decide, (mem_ownCells (g := cell d (cV L) (jV L) cc0_scratch3)).mpr ⟨rfl, by
      show (SemLoc.dma cc0_scratch3.sem : SemLoc sig).isScoped .scVector = true; decide⟩⟩),
    SparseCore.bigSep_erase' (Finset.mem_erase.mpr ⟨by simp [cell]; decide, Finset.mem_erase.mpr ⟨by simp [cell]; decide,
      (mem_ownCells (g := cell d (cV L) (jV L) cc0_scratch4)).mpr ⟨rfl, by show (SemLoc.dma cc0_scratch4.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d (cV L) (jV L) cc0_scoped0)).mpr ⟨rfl, by show (SemLoc.dma cc0_scoped0.sem : SemLoc sig).isScoped .scVector = true; decide⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The copied-out halves hold the result function -/

theorem out_lo_value (p : S64x128.Idx → Elt F .f32) (hp : ∀ y, p y = Gd m d ((oLoK L).view.emb y)) :
    ∀ j ∈ (oLoK L).view.set, (oLoK L).view.writes (Elt F) (m (oLoc d)) [⟨Rect.whole S64x128, p⟩] j = Gd m d j := by
  intro j hj
  rw [mem_oLoK] at hj
  obtain ⟨y, rfl⟩ : ∃ y : S64x128.Idx, j = (oLoK L).view.emb y := by
    refine ⟨ix2 ⟨(j 0).val - 128 * (wL L).val, by omega⟩ ⟨(j 1).val, (j 1).isLt⟩, ?_⟩
    funext a
    apply Fin.ext
    match a with
    | 0 =>
      show (j 0).val = (k0_off2 L) 0 + 1 * ((j 0).val - 128 * (wL L).val)
      rw [k0_off2_eq]; simp [wL_val] at hj ⊢; omega
    | 1 =>
      show (j 1).val = (k0_off2 L) 1 + 1 * (j 1).val
      rw [k0_off2_eq]; simp
  have h := View.read_writes_cons_emb (oLoK L).view (m (oLoc d)) (Rect.whole S64x128) p [] y
  rw [Rect.emb_whole_apply] at h
  exact h.trans (hp y)

theorem out_hi_value (p : S64x128.Idx → Elt F .f32) (hp : ∀ y, p y = Gd m d ((oHiK L).view.emb y)) :
    ∀ j ∈ (oHiK L).view.set, (oHiK L).view.writes (Elt F) (m (oLoc d)) [⟨Rect.whole S64x128, p⟩] j = Gd m d j := by
  intro j hj
  rw [mem_oHiK] at hj
  obtain ⟨y, rfl⟩ : ∃ y : S64x128.Idx, j = (oHiK L).view.emb y := by
    refine ⟨ix2 ⟨(j 0).val - (128 * (wL L).val + 64), by omega⟩ ⟨(j 1).val, (j 1).isLt⟩, ?_⟩
    funext a
    apply Fin.ext
    match a with
    | 0 =>
      show (j 0).val = (k0_off3 L) 0 + 1 * ((j 0).val - (128 * (wL L).val + 64))
      rw [k0_off3_eq]; simp [wL_val] at hj ⊢; omega
    | 1 =>
      show (j 1).val = (k0_off3 L) 1 + 1 * (j 1).val
      rw [k0_off3_eq]; simp
  have h := View.read_writes_cons_emb (oHiK L).view (m (oLoc d)) (Rect.whole S64x128) p [] y
  rw [Rect.emb_whole_apply] at h
  exact h.trans (hp y)

theorem oLo_emb0 (y : S64x128.Idx) : (((oLoK L).view.emb y) 0).val = 128 * (wL L).val + 0 + (y 0).val := by
  show (k0_off2 L) 0 + 1 * (y 0).val = _
  rw [k0_off2_eq]; simp [wL_val]; omega
theorem oLo_emb1 (y : S64x128.Idx) : (((oLoK L).view.emb y) 1).val = (y 1).val := by
  show (k0_off2 L) 1 + 1 * (y 1).val = _
  rw [k0_off2_eq]; simp
theorem oHi_emb0 (y : S64x128.Idx) : (((oHiK L).view.emb y) 0).val = 128 * (wL L).val + 64 + (y 0).val := by
  show (k0_off3 L) 0 + 1 * (y 0).val = _
  rw [k0_off3_eq]; simp [wL_val]; omega
theorem oHi_emb1 (y : S64x128.Idx) : (((oHiK L).view.emb y) 1).val = (y 1).val := by
  show (k0_off3 L) 1 + 1 * (y 1).val = _
  rw [k0_off3_eq]; simp

variable [FloatOps F]

/-! ## The task -/

set_option maxRecDepth 65536 in
set_option maxHeartbeats 4000000 in
theorem tile_body (hF : (K (F := F)).Facts) (hpre : Cert.Spec.InRange (m (iLoc d))) (O : CellTallies nD τ sig (HIx 1)) (W : Waits sig (HIx 1))
    (hO : ∀ g, O g none = 0) :
    iprop(levAts (K (F := F)).L (K (F := F)).lev ∗ emp
        ∗ goRes m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scoped0)
          fun _ => iprop(tdRes m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨Hs2, Hs3, Hs4, Hs0, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho2 := (oRow_halves (F := F) d L (m (oLoc d))).1 $$ Ho
  icases Ho2 with ⟨Hol, Hoh⟩
  ihave Hi' := (Entails.of_eq (pts_iRowK (F := F) d L _ _).symm) $$ Hi
  ihave Hol' := (Entails.of_eq (pts_oLoK (F := F) d L _).symm) $$ Hol
  ihave Hoh' := (Entails.of_eq (pts_oHiK (F := F) d L _).symm) $$ Hoh
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  -- the table is read by the two gathers at once: half of the token each
  ihave Hxs := (pointsTo_share (PosShare.mem_left_op_right (xq (cL L) (sL L)))).1 $$ Hx'
  icases Hxs with ⟨Hx0, Hx1⟩
  have hin0 := list_lo_inb m d L hpre
  have hin1 := list_hi_inb m d L hpre
  have hplan : Transfers.BatchOf (V d (cV L) (jV L)) (SemLoc.dma cc0_scratch4.sem : SemLoc sig) 2 := trivial
  sl_exec
  sl_step
  -- the halves copied out hold the result function on their rows
  ihave Hol2 := (Entails.of_eq (pointsTo_congr (q := fullShare) (out_lo_value m d L _ (fun y =>
    (scratch_lo d L fr _ _ y).trans (gather_value m d L hpre 0 inb_S128_S64_0 fs (hin0 fs) y _ (oLo_emb0 L y) (oLo_emb1 L y)))))) $$ Hol'
  ihave Hoh2 := (Entails.of_eq (pointsTo_congr (q := fullShare) (out_hi_value m d L _ (fun y =>
    (scratch_hi d L fr _ _ y).trans (gather_value m d L hpre 64 inb_S128_S64_64 fs (hin1 fs) y _ (oHi_emb0 L y) (oHi_emb1 L y)))))) $$ Hoh'
  ihave Ho3 := (oRow_halves (F := F) d L (Gd m d)).2 $$ [Hol2 Hoh2]
  · isplitl [Hol2]
    · iapply (Entails.of_eq (pts_oLoK (F := F) d L _)); iexact Hol2
    · iapply (Entails.of_eq (pts_oHiK (F := F) d L _)); iexact Hoh2
  ihave Hx2 := (pointsTo_share (PosShare.mem_left_op_right (xq (cL L) (sL L)))).2 $$ [Hx0 Hx1]
  · isplitl [Hx0] <;> iassumption
  isplitl [Hi' Hx2 Ho3]
  · isplitl [Hi']; · iapply (Entails.of_eq (pts_iRowK (F := F) d L _ _)); iexact Hi'
    isplitl [Hx2]; · iexact Hx2
    iexact Ho3
  isplitl [Hs' Hr' Hbufs]
  · isplitl [Hs']; · iexists _; iexact Hs'
    isplitl [Hr']; · iexists _; iexact Hr'
    iexact Hbufs
  isplitl [Hs2 Hs3 Hs4 Hs0 Hsems]
  · isplitl [Hs2]; · iexact Hs2
    isplitl [Hs3]; · iexact Hs3
    isplitl [Hs4]; · iexact Hs4
    isplitl [Hs0]; · iexact Hs0
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) rV (Memref.isWhole_whole _) cc0_scratch2 cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d : Dev nD, Cert.Spec.InRange (m (iLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (hpre d) O W hO).trans (wp_mono frame _ _ fun _ => obl_post)

end Tile

end Cert.Proof.KI

end
-- ==== Proof.KiLaunch.lean ====
/-
  The launch of the row gather. On every device the TensorCore cuts the row numbers and the result into
  their 32 blocks, deals each of the two cores its sixteen blocks of each and a read token of the table,
  starts the cores and waits for them; each core's sequencer deals tile `s` the blocks `2 s + c` and a
  read token of the core's token, and takes them back. Every tile brings its block of the result back at
  the ONE function `Gd` of the arguments, so the 32 blocks join to the whole result at that function, the
  read tokens join back to the table's full share, and the final memory reads: the result is the table's
  rows the row numbers name, the arguments are unchanged.
-/
import proofs.«217002_g82145544504098_cont_9to1_m_222_7_alg».proof.Proof.KiPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (ρ : Dev nD → PrngReg)

/-! ## The blocks split and join -/

theorem iRowSet_eq (w : Fin 32) : iRowSet w = (irow w).set := by
  show ((View.whole (main_arg0_scv : Ref sig .scVector)).slice (irow w)).set = _
  rw [View.set_slice]; exact Finset.map_refl
theorem oRowSet_eq (w : Fin 32) : oRowSet w = (orow w).set := by
  show ((View.whole (main_v0_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The row numbers whole are their 32 blocks. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The result whole, at one function, is its 32 blocks at that function. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- A block number is a core and a tile: block `2 s + c` is tile `s` of core `c`. -/
def blkEquiv : Fin 2 × Fin 16 ≃ Fin 32 where
  toFun p := blk p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

/-- Over the 32 blocks is over the two cores, each over its sixteen tiles. -/
theorem bigSep_blocks (Φ : Fin 32 → sProp 𝕄) :
    bigSep Finset.univ Φ = bigSep Finset.univ fun c : Fin 2 => bigSep Finset.univ fun s : Fin 16 => Φ (blk c s) := by
  rw [bigSep_univ_equiv blkEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A core's operands split among its tiles -/

/-- Core `c`'s read token of the table is sixteen tile tokens and a remainder; the remainder waits inside
    the wand that takes the tiles' blocks and tokens back and rebuilds the core's token. -/
theorem vecSplit_core (d : Dev nD) (c : Fin 2) :
    stRes m d c ⊢ |={Set.univ}=> iprop((bigSep Finset.univ fun s : Fin 16 => goRes m d c s)
      ∗ ((bigSep Finset.univ fun s : Fin 16 => tdRes m d c s) -∗ dnRes m d c)) := by
  unfold stRes dnRes goRes tdRes
  simp only [bigSep_sep']
  iintro ⟨Hx, Hi, Ho⟩
  ihave Hx' := (Transfers.pointsTo_toks_split (ℓ := xLoc d) (S := Finset.univ) (f := m (xLoc d)) (Transfers.shareTokN fullShare c.val) 16) $$ Hx
  icases Hx' with ⟨Hrem, Htoks⟩
  imodintro
  isplitl [Hi Htoks Ho]
  · isplitl [Hi]; · iexact Hi
    isplitl [Htoks]; · iexact Htoks
    iexact Ho
  iintro ⟨Hi, Htoks, Ho⟩
  isplitl [Hrem Htoks]
  · iapply (Transfers.pointsTo_toks_join (ℓ := xLoc d) (S := Finset.univ) (f := m (xLoc d)) (Transfers.shareTokN fullShare c.val) 16)
    isplitl [Hrem]; · iexact Hrem
    iexact Htoks
  isplitl [Hi]; · iexact Hi
  iexact Ho

/-- How a core's operands split into its tiles' and its results gather from theirs. -/
theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun s => goRes m d (Fin.cast nCore_zero c) s),
    bigSep_tasks (F := F) (fun s => tdRes m d (Fin.cast nCore_zero c) s)]
  exact vecSplit_core m d (Fin.cast nCore_zero c)

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore keeps of the table while the cores run: the remainder after the two core tokens. -/
abbrev xRem (d : Dev nD) : sProp 𝕄 := xLoc d ↦{Transfers.shareDrop fullShare 2} m (xLoc d)

/-- What a core holds with the result's blocks at `f`: its token and its sixteen blocks of each array. -/
abbrev coreRes (d : Dev nD) (c : Fin 2) (f : Buf (Elt F) (oLoc d)) : sProp 𝕄 :=
  iprop(xCorePts m d c ∗ bigSep Finset.univ fun s : Fin 16 => iprop(iRowPts m d (blk c s) ∗ oRowPts d (blk c s) f))

/-- The two cores' holdings, the result's blocks all at one function `f`: the two tokens, the row numbers whole and
    the result whole at `f`. -/
theorem cores_eq (d : Dev nD) (f : Buf (Elt F) (oLoc d)) :
    (bigSep Finset.univ fun c : Fin 2 => coreRes m d c f)
      = iprop((bigSep Finset.univ fun c : Fin 2 => xCorePts m d c) ∗ iPts m d ∗ oPts d f) := by
  have h := bigSep_blocks (F := F) (fun w => iprop(iRowPts m d w ∗ oRowPts d w f))
  beta_reduce at h
  unfold coreRes
  rw [bigSep_sep', ← h, bigSep_sep']
  unfold iPts oPts iRowPts oRowPts
  rw [← iPts_rows, ← oPts_rows]

theorem deal (d : Dev nD) (f : Buf (Elt F) (oLoc d)) :
    iprop(iPts m d ∗ xPts m d ∗ oPts d f) ⊢ iprop(xRem m d ∗ bigSep Finset.univ fun c : Fin 2 => coreRes m d c f) := by
  rw [cores_eq]
  iintro ⟨Hi, Hx, Ho⟩
  ihave Hx' := (Transfers.pointsTo_toks_split (ℓ := xLoc d) (S := Finset.univ) (f := m (xLoc d)) fullShare 2) $$ Hx
  icases Hx' with ⟨Hrem, Htoks⟩
  isplitl [Hrem]; · iexact Hrem
  isplitl [Htoks]; · iexact Htoks
  isplitl [Hi]; · iexact Hi
  iexact Ho

theorem collect (d : Dev nD) (f : Buf (Elt F) (oLoc d)) :
    iprop(xRem m d ∗ bigSep Finset.univ fun c : Fin 2 => coreRes m d c f) ⊢ iprop(iPts m d ∗ xPts m d ∗ oPts d f) := by
  rw [cores_eq]
  iintro ⟨Hrem, Htoks, Hi, Ho⟩
  isplitl [Hi]; · iexact Hi
  isplitl [Hrem Htoks]
  · iapply (Transfers.pointsTo_toks_join (ℓ := xLoc d) (S := Finset.univ) (f := m (xLoc d)) fullShare 2)
    isplitl [Hrem]; · iexact Hrem
    iexact Htoks
  iexact Ho

theorem st0_eq (d : Dev nD) :
    (bigSep Finset.univ fun c : Fin ((K (F := F)).nCore 0) => (P m).st 0 d c) = bigSep Finset.univ fun c : Fin 2 => coreRes m d c (m (oLoc d)) :=
  bigSep_cores (F := F) (fun c => coreRes m d c (m (oLoc d)))
theorem dn0_eq (d : Dev nD) :
    (bigSep Finset.univ fun c : Fin ((K (F := F)).nCore 0) => (P m).dn 0 d c) = bigSep Finset.univ fun c : Fin 2 => coreRes m d c (Gd m d) :=
  bigSep_cores (F := F) (fun c => coreRes m d c (Gd m d))

/-- What @main ends holding: the three arrays whole, the result at the one function of the arguments. -/
abbrev FIN (d : Dev nD) : sProp 𝕄 := iprop(iPts m d ∗ xPts m d ∗ oPts d (Gd m d))

variable [FloatOps F]

/-- @main on device `d`'s TensorCore: the one call, from the three arrays whole; they come back whole, the result
    at the table's rows the row numbers name. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hd := (deal m d (m (oLoc d))) $$ [Hi Hx Ho]
  · isplitl [Hi]; · iexact Hi
    isplitl [Hx]; · iexact Hx
    iexact Ho
  icases Hd with ⟨Hrem, Hcores⟩
  iapply ((K (F := F)).wp_run (D (F := F)) 𝒱 (EH := EH) (P := P m) κ d 0) $$ [Hst Hcores Hrem]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hfin := (collect m d (Gd m d)) $$ [Hrem Hdn']
  · isplitl [Hrem]; · iexact Hrem
    iexact Hdn'
  imodintro
  isplitl [Hst]; · iexact Hst
  iexact Hfin

/-! ## The final memory -/

def fq (d : Dev nD) (s' : Phys nD τ sig (Elt F)) : Prop :=
  s'.mem.mem (iLoc d) = m (iLoc d) ∧ s'.mem.mem (xLoc d) = m (xLoc d) ∧ s'.mem.mem (oLoc d) = Gd m d

omit [FloatOps F] in
set_option maxRecDepth 16384 in
/-- The three arrays held whole say what the final memory holds at them. -/
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := Gd m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device: the result is the table's rows the row numbers name; the arguments are unchanged. -/
def QC : PUnit × MemSt nD τ sig (Elt F) → Prop := fun r => ∀ c : Dev nD,
  r.2.mem (oLoc c) = Gd m c ∧ r.2.mem (iLoc c) = m (iLoc c) ∧ r.2.mem (xLoc c) = m (xLoc c)

/-- Given the tile's task proved, every weakly fair execution of the program's threads from `m` terminates and ends
    with the result at the one function of the arguments and the arguments unchanged. -/
theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KI

end
-- ==== Proof.KbSetup.lean ====
/-
  The row gather on the vector subcores: the names the tile's proof and the launch share.

  The result's 4096 rows are cut into 32 blocks of 128 rows; vector subcore `s` of core `c` owns block
  `2 s + c`: it reads that block of the row numbers, gathers the 128 table rows they name into its row
  scratch in two halves of 64, and copies each half out to the matching 64 rows of the result. Every tile
  reads the whole table, so each is dealt a read share of it; the row numbers' block and the result's
  block it owns outright.
-/
import proofs.«217002_g82145544504098_cont_9to1_m_222_7_alg».proof.Defs
import proofs.«217002_g82145544504098_cont_9to1_m_222_7_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«217002_g82145544504098_cont_9to1_m_222_7_alg».proof.Proof.Gen.Kernel
import proofs.«217002_g82145544504098_cont_9to1_m_222_7_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

/-- The model of the separation logic at float instance `F`. -/
abbrev MM (F : FTy → Type) : Type := MT nD τ sig (HIx 1) (Elt F) ℕ UU ℕ

abbrev EH : Emb UH (MM F) := embL

/-! ## The arrays and their blocks -/

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S4096 .i32 := Memref.whole main_arg0_scv
abbrev xV : Memref sig .scVector .hbm S100001x128 .f32 := Memref.whole main_arg1_scv
abbrev oV : Memref sig .scVector .hbm S4096x128 .f32 := Memref.whole main_v0_scv
abbrev sV : Memref sig .scVector .vmem S128 .i32 := Memref.whole cc0_scratch0
abbrev rV : Memref sig .scVector .vmem S128x128 .f32 := Memref.whole cc0_scratch1

theorem idiv : 32 ∣ S4096.size 0 := ⟨128, rfl⟩
theorem odiv : 32 ∣ S4096x128.size 0 := ⟨128, rfl⟩
/-- Block `w` of the row numbers: entries `128 w … 128 w + 127`. -/
abbrev irow (w : Fin 32) : Rect S4096 := Rect.part (s := S4096) (a₀ := 0) idiv w
/-- Block `w` of the result: rows `128 w … 128 w + 127`, whole. -/
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((oV).view.slice (orow w)).set

/-- The block of tile `s` of core `c`. -/
def blk (c : Fin 2) (s : Fin 16) : Fin 32 := ⟨2 * s.val + c.val, by omega⟩

/-- Tile `(c, s)`'s read share of the table: core `c`'s token of the full share, then tile `s`'s token of that. -/
abbrev xq (c : Fin 2) (s : Fin 16) : PosShare TreeShare := Transfers.shareTokN (Transfers.shareTokN fullShare c.val) s.val

end Cert.Proof.KB

end
-- ==== Proof.KbGeom.lean ====
/-
  One tile's geometry: the block of row numbers it reads and the two half-blocks of the result it writes,
  as the task slices them, are the launch's block `2 s + c` and its two halves.
-/
import proofs.«217002_g82145544504098_cont_9to1_m_222_7_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The tile's block number. -/
abbrev wL (L : grid0.Coords) : Fin 32 := blk (cL L) (sL L)

theorem wL_val : (wL L).val = 2 * (L 1).val + (L 0).val := rfl

/-- The tile's block of the row numbers, and the two halves of its block of the result, as the task slices them. -/
abbrev irowK (L : grid0.Coords) : Rect S4096 := Rect.unit (s := S4096) (k0_off1 L) S128.size (k0_off1_inb L)
abbrev oloK (L : grid0.Coords) : Rect S4096x128 := Rect.unit (s := S4096x128) (k0_off2 L) S64x128.size (k0_off2_inb L)
abbrev ohiK (L : grid0.Coords) : Rect S4096x128 := Rect.unit (s := S4096x128) (k0_off3 L) S64x128.size (k0_off3_inb L)
abbrev iRowK (L : grid0.Coords) : Memref sig .scVector .hbm S128 .i32 := (iV).slice (irowK L) (fun _ => rfl)
abbrev oLoK (L : grid0.Coords) : Memref sig .scVector .hbm S64x128 .f32 := (oV).slice (oloK L) (fun _ => rfl)
abbrev oHiK (L : grid0.Coords) : Memref sig .scVector .hbm S64x128 .f32 := (oV).slice (ohiK L) (fun _ => rfl)

theorem irowK_eq : irowK L = irow (wL L) := by
  unfold irowK irow Rect.part Rect.block
  congr 1 <;> funext a
  · rw [k0_off1_eq]
    match a with
    | 0 => simp [Shape.partIx, Shape.partSize, wL_val]; omega
  · match a with
    | 0 => simp [Shape.partSize]

theorem set_iRowK : (iRowK L).view.set = iRowSet (wL L) := by
  show ((iV).view.slice (irowK L)).set = ((iV).view.slice (irow (wL L))).set
  rw [irowK_eq]

theorem mem_oRowSet (w : Fin 32) (j : S4096x128.Idx) : j ∈ oRowSet w ↔ 128 * w.val ≤ (j 0).val ∧ (j 0).val < 128 * w.val + 128 := by
  show j ∈ ((View.whole (main_v0_scv : Ref sig .scVector)).slice (orow w)).set ↔ _
  rw [View.set_slice_whole, Rect.mem_set_unit]
  constructor
  · intro h
    have := h 0
    simp [Shape.partIx, Shape.partSize] at this
    omega
  · intro h a
    match a with
    | 0 => simp [Shape.partIx, Shape.partSize]; omega
    | 1 => simp [Shape.partIx, Shape.partSize]; exact (j 1).isLt

theorem mem_oLoK (j : S4096x128.Idx) : j ∈ (oLoK L).view.set ↔ 128 * (wL L).val ≤ (j 0).val ∧ (j 0).val < 128 * (wL L).val + 64 := by
  show j ∈ ((View.whole (main_v0_scv : Ref sig .scVector)).slice (oloK L)).set ↔ _
  rw [View.set_slice_whole, Rect.mem_set_unit, k0_off2_eq]
  constructor
  · intro h
    have := h 0
    simp [wL_val] at this ⊢
    omega
  · intro h a
    match a with
    | 0 => simp [wL_val] at h ⊢; omega
    | 1 => simp; exact (j 1).isLt

theorem mem_oHiK (j : S4096x128.Idx) : j ∈ (oHiK L).view.set ↔ 128 * (wL L).val + 64 ≤ (j 0).val ∧ (j 0).val < 128 * (wL L).val + 128 := by
  show j ∈ ((View.whole (main_v0_scv : Ref sig .scVector)).slice (ohiK L)).set ↔ _
  rw [View.set_slice_whole, Rect.mem_set_unit, k0_off3_eq]
  constructor
  · intro h
    have := h 0
    simp [wL_val] at this ⊢
    omega
  · intro h a
    match a with
    | 0 => simp [wL_val] at h ⊢; omega
    | 1 => simp; exact (j 1).isLt

/-- The tile's block of the result is its two halves, -/
theorem oRowSet_halves : oRowSet (wL L) = (oLoK L).view.set ∪ (oHiK L).view.set := by
  ext j
  rw [Finset.mem_union, mem_oRowSet, mem_oLoK, mem_oHiK]
  omega

/-- which share no row. -/
theorem halves_disjoint : Disjoint (oLoK L).view.set (oHiK L).view.set := by
  rw [Finset.disjoint_left]
  intro j h1 h2
  rw [mem_oLoK] at h1
  rw [mem_oHiK] at h2
  omega

end Tile

end Cert.Proof.KB

end
-- ==== Proof.KbPay.lean ====
/-
  What the handshakes carry. The TensorCore hands each core a read token of the table and, for each of its
  sixteen tiles, that tile's block of the row numbers and of the result; the sequencer hands tile `s` its
  blocks and a read token of the core's token. Each tile brings its blocks back, the result's block now at
  the ONE function of the arguments that the whole result is to hold (`Gd`): row `r` is the table's row the
  r-th row number names. The blocks at that one function join to the whole result at it.
-/
import proofs.«217002_g82145544504098_cont_9to1_m_222_7_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

/-- The result every device's output array is to hold, as one function of its argument arrays. -/
abbrev Gd (d : Dev nD) : Buf (Elt F) (oLoc d) := Cert.Spec.rowGather (m (iLoc d)) (m (xLoc d))

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev oRowPts (d : Dev nD) (w : Fin 32) (f : Buf (Elt F) (oLoc d)) : sProp 𝕄 := oLoc d ↦[oRowSet w]{fullShare} f
/-- Core `c`'s read token of the table, and tile `(c, s)`'s token of that. -/
abbrev xCorePts (d : Dev nD) (c : Fin 2) : sProp 𝕄 := xLoc d ↦{Transfers.shareTokN fullShare c.val} m (xLoc d)
abbrev xShPts (d : Dev nD) (c : Fin 2) (s : Fin 16) : sProp 𝕄 := xLoc d ↦{xq c s} m (xLoc d)

/-- What tile `(c, s)` is handed, and what it hands back. -/
abbrev goRes (d : Dev nD) (c : Fin 2) (s : Fin 16) : sProp 𝕄 :=
  iprop(iRowPts m d (blk c s) ∗ xShPts m d c s ∗ oRowPts d (blk c s) (m (oLoc d)))
abbrev tdRes (d : Dev nD) (c : Fin 2) (s : Fin 16) : sProp 𝕄 :=
  iprop(iRowPts m d (blk c s) ∗ xShPts m d c s ∗ oRowPts d (blk c s) (Gd m d))
/-- What core `c` is handed, and what it hands back. -/
abbrev stRes (d : Dev nD) (c : Fin 2) : sProp 𝕄 :=
  iprop(xCorePts m d c ∗ bigSep Finset.univ fun s : Fin 16 => iprop(iRowPts m d (blk c s) ∗ oRowPts d (blk c s) (m (oLoc d))))
abbrev dnRes (d : Dev nD) (c : Fin 2) : sProp 𝕄 :=
  iprop(xCorePts m d c ∗ bigSep Finset.univ fun s : Fin 16 => iprop(iRowPts m d (blk c s) ∗ oRowPts d (blk c s) (Gd m d)))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (stRes m d (Fin.cast nCore_zero c)))
  dn q d c := match q with
    | 0 => (inferInstance : BI.Storable (upEmb : UEmb _ 𝕄) (dnRes m d (Fin.cast nCore_zero c)))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KB

end
-- ==== Proof.KbValue.lean ====
/-
  The value one tile leaves in its block of the result.

  The tile's list scratch holds its block of the row numbers: entry `k` is row number `128 w + k` (`w` the
  tile's block). A gather over entries `o … o + 63` of the list puts, at row `y` of its half of the row
  scratch, the table's row named by list entry `o + y`; the two halves are written side by side, so each
  reads back what its own gather put there. Copied out to rows `128 w + o + y` of the result, that is the
  table's row named by row number `128 w + o + y`: the function `Cert.Spec.rowGather` at that row.
-/
import proofs.«217002_g82145544504098_cont_9to1_m_222_7_alg».proof.Proof.KbGeom
import proofs.«217002_g82145544504098_cont_9to1_m_222_7_alg».proof.Proof.KbPay
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx

variable (m : (ℓ : Loc nD τ sig) → Buf (Elt F) ℓ) (d : Dev nD) (L : grid0.Coords)

/-- The two halves of the row scratch, the two halves of the list scratch, and the whole table, as the task slices them. -/
abbrev loR : Rect S128x128 := Rect.unit (s := S128x128) ![0, 0] S64x128.size inb_S128x128_S64x128_0_0
abbrev hiR : Rect S128x128 := Rect.unit (s := S128x128) ![64, 0] S64x128.size inb_S128x128_S64x128_64_0
abbrev lstLoR : Rect S128 := Rect.unit (s := S128) ![0] S64.size inb_S128_S64_0
abbrev lstHiR : Rect S128 := Rect.unit (s := S128) ![64] S64.size inb_S128_S64_64
abbrev xAllR : Rect S100001x128 := Rect.unit (s := S100001x128) ![0, 0] S100001x128.size inb_S100001x128_S100001x128_0_0

/-- The tile's block of the row numbers, as the index fetch lands it in the list scratch. -/
abbrev lstK : S128.Idx → Elt F .i32 := (iRowK L).view.read (Elt F) (m (iLoc d))

theorem lstK_inb (hpre : Cert.Spec.InRange (m (iLoc d))) (k : S128.Idx) : (lstK m d L k).toNat < 100001 := by
  show ((iRowK L).view.read (Elt F) (m (iLoc d)) k).toNat < 100001
  rw [View.read_apply]
  exact hpre _

theorem list_lo_inb (hpre : Cert.Spec.InRange (m (iLoc d))) (fs : Buf (Elt F) ((sV).view.loc (V d (cV L) (jV L)))) (x : S64.Idx) :
    (((sV).slice lstLoR (fun _ => rfl)).view.read (Elt F)
      (View.write (Elt F) (sV).view fs (lstK m d L) Finset.univ) x).toNat < S100001x128.size gathers_S100001x128_S64x128.axis := by
  have e : View.write (Elt F) (sV).view fs (lstK m d L) Finset.univ = lstK m d L := View.write_whole_univ cc0_scratch0 fs (lstK m d L)
  rw [e]
  exact lstK_inb m d L hpre _

theorem list_hi_inb (hpre : Cert.Spec.InRange (m (iLoc d))) (fs : Buf (Elt F) ((sV).view.loc (V d (cV L) (jV L)))) (x : S64.Idx) :
    (((sV).slice lstHiR (fun _ => rfl)).view.read (Elt F)
      (View.write (Elt F) (sV).view fs (lstK m d L) Finset.univ) x).toNat < S100001x128.size gathers_S100001x128_S64x128.axis := by
  have e : View.write (Elt F) (sV).view fs (lstK m d L) Finset.univ = lstK m d L := View.write_whole_univ cc0_scratch0 fs (lstK m d L)
  rw [e]
  exact lstK_inb m d L hpre _

/-! ## The row scratch reads back what each gather put in its half -/

theorem halves_scratch_disjoint : Disjoint (hiR).set (loR).set :=
  Rect.unit_disjoint 0 (Or.inr (by decide))

theorem scratch_hi (fr : Buf (Elt F) ((rV).view.loc (V d (cV L) (jV L)))) (gh gl : S64x128.Idx → Elt F .f32) (y : S64x128.Idx) :
    ((rV).slice hiR (fun _ => rfl)).view.read (Elt F) ((rV).view.writes (Elt F) fr [⟨hiR, gh⟩, ⟨loR, gl⟩]) y = gh y :=
  View.read_writes_cons_emb (rV).view fr hiR gh [⟨loR, gl⟩] y

theorem scratch_lo (fr : Buf (Elt F) ((rV).view.loc (V d (cV L) (jV L)))) (gh gl : S64x128.Idx → Elt F .f32) (y : S64x128.Idx) :
    ((rV).slice loR (fun _ => rfl)).view.read (Elt F) ((rV).view.writes (Elt F) fr [⟨hiR, gh⟩, ⟨loR, gl⟩]) y = gl y := by
  rw [View.writes_swap (rV).view fr ⟨hiR, gh⟩ ⟨loR, gl⟩ [] halves_scratch_disjoint]
  exact View.read_writes_cons_emb (rV).view fr loR gl [⟨hiR, gh⟩] y

/-! ## What a gather over half the list puts in its half of the row scratch -/

theorem rowMajor_symm_val (k : Fin S64.numel) : ((S64.rowMajor.symm k) 0).val = k.val := by
  have h := Shape.rowMajor_val_one (S64.rowMajor.symm k)
  rw [Equiv.apply_symm_apply] at h
  exact h.symm

/-- The list entry a window of the list scratch reads at `x`, the window starting at entry `o`, is row number `128 w + o + x`. -/
theorem list_entry (o : ℕ) (ho : ∀ a, (![o] : Fin 1 → ℕ) a + S64.size a ≤ S128.size a) (x : S64.Idx) (j0 : Fin 4096)
    (hj0 : j0.val = 128 * (wL L).val + o + (x 0).val) :
    ((sV).slice (Rect.unit (s := S128) ![o] S64.size ho) (fun _ => rfl)).view.read (Elt F) (lstK m d L) x = m (iLoc d) (ix1 j0) := by
  show m (iLoc d) _ = m (iLoc d) _
  congr 1
  funext b
  apply Fin.ext
  match b with
  | 0 =>
    show (k0_off1 L) 0 + 1 * (![o] 0 + 1 * (x 0).val) = j0.val
    rw [k0_off1_eq, hj0, wL_val]
    simp
    omega

/-- Entry `y` of a gather over the list's entries `o … o + 63` is the result function at row `128 w + o + y₀`, column `y₁`. -/
theorem gather_value (hpre : Cert.Spec.InRange (m (iLoc d))) (o : ℕ) (ho : ∀ a, (![o] : Fin 1 → ℕ) a + S64.size a ≤ S128.size a)
    (fs : Buf (Elt F) ((sV).view.loc (V d (cV L) (jV L))))
    (hin : ∀ x, (((sV).slice (Rect.unit (s := S128) ![o] S64.size ho) (fun _ => rfl)).view.read (Elt F)
      (View.write (Elt F) (sV).view fs (lstK m d L) Finset.univ) x).toNat < S100001x128.size gathers_S100001x128_S64x128.axis)
    (y : S64x128.Idx) (j : S4096x128.Idx) (hj0 : (j 0).val = 128 * (wL L).val + o + (y 0).val) (hj1 : (j 1).val = (y 1).val) :
    SparseCore.gatherPayload gathers_S100001x128_S64x128 (((xV).slice xAllR (fun _ => rfl)).view.read (Elt F) (m (xLoc d)))
      (SparseCore.rows (((sV).slice (Rect.unit (s := S128) ![o] S64.size ho) (fun _ => rfl)).view.read (Elt F)
        (View.write (Elt F) (sV).view fs (lstK m d L) Finset.univ)) rfl hin) y
      = Gd m d j := by
  have e : View.write (Elt F) (sV).view fs (lstK m d L) Finset.univ = lstK m d L := View.write_whole_univ cc0_scratch0 fs (lstK m d L)
  show m (xLoc d) _ = m (xLoc d) _
  congr 1
  funext b
  apply Fin.ext
  match b with
  | 0 =>
    show (xAllR).off 0 + (xAllR).stride 0 * (gathers_S100001x128_S64x128.idx _ y 0).val = (Cert.Spec.rowOf (m (iLoc d) (ix1 (n := 4096) (j 0)))).val
    rw [Cert.Spec.rowOf_val_of_lt (hpre _)]
    have h0 := congrArg Fin.val (Shape.Gathers.idx_axis gathers_S100001x128_S64x128
      (SparseCore.rows (((sV).slice (Rect.unit (s := S128) ![o] S64.size ho) (fun _ => rfl)).view.read (Elt F)
        (View.write (Elt F) (sV).view fs (lstK m d L) Finset.univ)) rfl hin) y)
    have h1 : (gathers_S100001x128_S64x128.idx (SparseCore.rows (((sV).slice (Rect.unit (s := S128) ![o] S64.size ho) (fun _ => rfl)).view.read (Elt F)
        (View.write (Elt F) (sV).view fs (lstK m d L) Finset.univ)) rfl hin) y 0).val
        = (((sV).slice (Rect.unit (s := S128) ![o] S64.size ho) (fun _ => rfl)).view.read (Elt F)
            (View.write (Elt F) (sV).view fs (lstK m d L) Finset.univ) (S64.rowMajor.symm ((y gathers_S100001x128_S64x128.axis').cast rfl))).toNat := h0
    rw [h1, e]
    rw [list_entry m d L o ho _ (j 0) (by rw [hj0, rowMajor_symm_val]; rfl)]
    simp
  | 1 =>
    show (xAllR).off 1 + (xAllR).stride 1 * (gathers_S100001x128_S64x128.idx _ y 1).val = (j 1).val
    rw [Shape.Gathers.idx_of_ne gathers_S100001x128_S64x128 _ y 1 (by decide), hj1]
    simp

end Cert.Proof.KB

end
-- ==== Proof.KbTile.lean ====
/-
  One tile's task, proved once at a symbolic tile. Handed its block of the row numbers, a read token of the
  table and its block of the result, the tile fetches the row numbers into its list scratch, issues the two
  gathers (each on its own semaphore, each reading the table through half of the token), waits for the first
  and starts copying its half out, waits for the second and starts copying that half out (the two copies on
  one semaphore: a batch of two, drained by the two waits that follow, nothing touching their ends in
  between), and ends holding its block of the result at the result function `Gd`.
-/
import proofs.«217002_g82145544504098_cont_9to1_m_222_7_alg».proof.Proof.KbValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx

local notation "𝕄" => MM F

variable (m : (ℓ : Loc nD τ sig) → Buf (Elt F) ℓ)

section Tile

variable (d : Dev nD) (L : grid0.Coords)

abbrev cell (d : Dev nD) (c : Fin τ.nSC) (i : Fin τ.nSub) (sm : DmaSems sig S_) : GSem nD τ sig := (V d c i, .dma sm.sem)

theorem pts_iRowK (q : PosShare TreeShare) (f : Buf (Elt F) (iLoc d)) :
    ((iRowK L).view.loc (V d (cV L) (jV L)) ↦[(iRowK L).view.set]{q} f : sProp 𝕄) = iLoc d ↦[iRowSet (wL L)]{q} f := by
  rw [set_iRowK]
theorem pts_oLoK (f : Buf (Elt F) (oLoc d)) :
    ((oLoK L).view.loc (V d (cV L) (jV L)) ↦[(oLoK L).view.set]{fullShare} f : sProp 𝕄) = oLoc d ↦[(oLoK L).view.set]{fullShare} f := rfl
theorem pts_oHiK (f : Buf (Elt F) (oLoc d)) :
    ((oHiK L).view.loc (V d (cV L) (jV L)) ↦[(oHiK L).view.set]{fullShare} f : sProp 𝕄) = oLoc d ↦[(oHiK L).view.set]{fullShare} f := rfl
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's block of the result is held as its two halves. -/
theorem oRow_halves (f : Buf (Elt F) (oLoc d)) :
    (oRowPts d (wL L) f : sProp 𝕄) ⊣⊢ iprop((oLoc d ↦[(oLoK L).view.set]{fullShare} f) ∗ oLoc d ↦[(oHiK L).view.set]{fullShare} f) := by
  unfold oRowPts
  rw [oRowSet_halves]
  exact pointsTo_union (halves_disjoint L)

/-- The vector subcore's four DMA semaphores are among its own cells. -/
theorem ownSems0_V :
    (ownSems0 (V d (cV L) (jV L)) : sProp 𝕄)
      = iprop(semVal (cell d (cV L) (jV L) cc0_scratch2) 0 ∗ semVal (cell d (cV L) (jV L) cc0_scratch3) 0
          ∗ semVal (cell d (cV L) (jV L) cc0_scratch4) 0 ∗ semVal (cell d (cV L) (jV L) cc0_scoped0) 0
          ∗ bigSep (((((ownCells (V d (cV L) (jV L))).erase (cell d (cV L) (jV L) cc0_scratch2)).erase (cell d (cV L) (jV L) cc0_scratch3)).erase
              (cell d (cV L) (jV L) cc0_scratch4)).erase (cell d (cV L) (jV L) cc0_scoped0)) fun g => semVal g 0) := by
  unfold SparseCore.Cfg.ownSems0
  rw [SparseCore.bigSep_erase' ((mem_ownCells (g := cell d (cV L) (jV L) cc0_scratch2)).mpr ⟨rfl, by
      show (SemLoc.dma cc0_scratch2.sem : SemLoc sig).isScoped .scVector = true; decide⟩),
    SparseCore.bigSep_erase' (Finset.mem_erase.mpr ⟨by simp [cell]; decide, (mem_ownCells (g := cell d (cV L) (jV L) cc0_scratch3)).mpr ⟨rfl, by
      show (SemLoc.dma cc0_scratch3.sem : SemLoc sig).isScoped .scVector = true; decide⟩⟩),
    SparseCore.bigSep_erase' (Finset.mem_erase.mpr ⟨by simp [cell]; decide, Finset.mem_erase.mpr ⟨by simp [cell]; decide,
      (mem_ownCells (g := cell d (cV L) (jV L) cc0_scratch4)).mpr ⟨rfl, by show (SemLoc.dma cc0_scratch4.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d (cV L) (jV L) cc0_scoped0)).mpr ⟨rfl, by show (SemLoc.dma cc0_scoped0.sem : SemLoc sig).isScoped .scVector = true; decide⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The copied-out halves hold the result function -/

theorem out_lo_value (p : S64x128.Idx → Elt F .f32) (hp : ∀ y, p y = Gd m d ((oLoK L).view.emb y)) :
    ∀ j ∈ (oLoK L).view.set, (oLoK L).view.writes (Elt F) (m (oLoc d)) [⟨Rect.whole S64x128, p⟩] j = Gd m d j := by
  intro j hj
  rw [mem_oLoK] at hj
  obtain ⟨y, rfl⟩ : ∃ y : S64x128.Idx, j = (oLoK L).view.emb y := by
    refine ⟨ix2 ⟨(j 0).val - 128 * (wL L).val, by omega⟩ ⟨(j 1).val, (j 1).isLt⟩, ?_⟩
    funext a
    apply Fin.ext
    match a with
    | 0 =>
      show (j 0).val = (k0_off2 L) 0 + 1 * ((j 0).val - 128 * (wL L).val)
      rw [k0_off2_eq]; simp [wL_val] at hj ⊢; omega
    | 1 =>
      show (j 1).val = (k0_off2 L) 1 + 1 * (j 1).val
      rw [k0_off2_eq]; simp
  have h := View.read_writes_cons_emb (oLoK L).view (m (oLoc d)) (Rect.whole S64x128) p [] y
  rw [Rect.emb_whole_apply] at h
  exact h.trans (hp y)

theorem out_hi_value (p : S64x128.Idx → Elt F .f32) (hp : ∀ y, p y = Gd m d ((oHiK L).view.emb y)) :
    ∀ j ∈ (oHiK L).view.set, (oHiK L).view.writes (Elt F) (m (oLoc d)) [⟨Rect.whole S64x128, p⟩] j = Gd m d j := by
  intro j hj
  rw [mem_oHiK] at hj
  obtain ⟨y, rfl⟩ : ∃ y : S64x128.Idx, j = (oHiK L).view.emb y := by
    refine ⟨ix2 ⟨(j 0).val - (128 * (wL L).val + 64), by omega⟩ ⟨(j 1).val, (j 1).isLt⟩, ?_⟩
    funext a
    apply Fin.ext
    match a with
    | 0 =>
      show (j 0).val = (k0_off3 L) 0 + 1 * ((j 0).val - (128 * (wL L).val + 64))
      rw [k0_off3_eq]; simp [wL_val] at hj ⊢; omega
    | 1 =>
      show (j 1).val = (k0_off3 L) 1 + 1 * (j 1).val
      rw [k0_off3_eq]; simp
  have h := View.read_writes_cons_emb (oHiK L).view (m (oLoc d)) (Rect.whole S64x128) p [] y
  rw [Rect.emb_whole_apply] at h
  exact h.trans (hp y)

theorem oLo_emb0 (y : S64x128.Idx) : (((oLoK L).view.emb y) 0).val = 128 * (wL L).val + 0 + (y 0).val := by
  show (k0_off2 L) 0 + 1 * (y 0).val = _
  rw [k0_off2_eq]; simp [wL_val]; omega
theorem oLo_emb1 (y : S64x128.Idx) : (((oLoK L).view.emb y) 1).val = (y 1).val := by
  show (k0_off2 L) 1 + 1 * (y 1).val = _
  rw [k0_off2_eq]; simp
theorem oHi_emb0 (y : S64x128.Idx) : (((oHiK L).view.emb y) 0).val = 128 * (wL L).val + 64 + (y 0).val := by
  show (k0_off3 L) 0 + 1 * (y 0).val = _
  rw [k0_off3_eq]; simp [wL_val]; omega
theorem oHi_emb1 (y : S64x128.Idx) : (((oHiK L).view.emb y) 1).val = (y 1).val := by
  show (k0_off3 L) 1 + 1 * (y 1).val = _
  rw [k0_off3_eq]; simp

variable [FloatOps F]

/-! ## The task -/

set_option maxRecDepth 65536 in
set_option maxHeartbeats 4000000 in
theorem tile_body (hF : (K (F := F)).Facts) (hpre : Cert.Spec.InRange (m (iLoc d))) (O : CellTallies nD τ sig (HIx 1)) (W : Waits sig (HIx 1))
    (hO : ∀ g, O g none = 0) :
    iprop(levAts (K (F := F)).L (K (F := F)).lev ∗ emp
        ∗ goRes m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scoped0)
          fun _ => iprop(tdRes m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨Hs2, Hs3, Hs4, Hs0, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho2 := (oRow_halves (F := F) d L (m (oLoc d))).1 $$ Ho
  icases Ho2 with ⟨Hol, Hoh⟩
  ihave Hi' := (Entails.of_eq (pts_iRowK (F := F) d L _ _).symm) $$ Hi
  ihave Hol' := (Entails.of_eq (pts_oLoK (F := F) d L _).symm) $$ Hol
  ihave Hoh' := (Entails.of_eq (pts_oHiK (F := F) d L _).symm) $$ Hoh
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  -- the table is read by the two gathers at once: half of the token each
  ihave Hxs := (pointsTo_share (PosShare.mem_left_op_right (xq (cL L) (sL L)))).1 $$ Hx'
  icases Hxs with ⟨Hx0, Hx1⟩
  have hin0 := list_lo_inb m d L hpre
  have hin1 := list_hi_inb m d L hpre
  have hplan : Transfers.BatchOf (V d (cV L) (jV L)) (SemLoc.dma cc0_scratch4.sem : SemLoc sig) 2 := trivial
  sl_exec
  sl_step
  -- the halves copied out hold the result function on their rows
  ihave Hol2 := (Entails.of_eq (pointsTo_congr (q := fullShare) (out_lo_value m d L _ (fun y =>
    (scratch_lo d L fr _ _ y).trans (gather_value m d L hpre 0 inb_S128_S64_0 fs (hin0 fs) y _ (oLo_emb0 L y) (oLo_emb1 L y)))))) $$ Hol'
  ihave Hoh2 := (Entails.of_eq (pointsTo_congr (q := fullShare) (out_hi_value m d L _ (fun y =>
    (scratch_hi d L fr _ _ y).trans (gather_value m d L hpre 64 inb_S128_S64_64 fs (hin1 fs) y _ (oHi_emb0 L y) (oHi_emb1 L y)))))) $$ Hoh'
  ihave Ho3 := (oRow_halves (F := F) d L (Gd m d)).2 $$ [Hol2 Hoh2]
  · isplitl [Hol2]
    · iapply (Entails.of_eq (pts_oLoK (F := F) d L _)); iexact Hol2
    · iapply (Entails.of_eq (pts_oHiK (F := F) d L _)); iexact Hoh2
  ihave Hx2 := (pointsTo_share (PosShare.mem_left_op_right (xq (cL L) (sL L)))).2 $$ [Hx0 Hx1]
  · isplitl [Hx0] <;> iassumption
  isplitl [Hi' Hx2 Ho3]
  · isplitl [Hi']; · iapply (Entails.of_eq (pts_iRowK (F := F) d L _ _)); iexact Hi'
    isplitl [Hx2]; · iexact Hx2
    iexact Ho3
  isplitl [Hs' Hr' Hbufs]
  · isplitl [Hs']; · iexists _; iexact Hs'
    isplitl [Hr']; · iexists _; iexact Hr'
    iexact Hbufs
  isplitl [Hs2 Hs3 Hs4 Hs0 Hsems]
  · isplitl [Hs2]; · iexact Hs2
    isplitl [Hs3]; · iexact Hs3
    isplitl [Hs4]; · iexact Hs4
    isplitl [Hs0]; · iexact Hs0
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) rV (Memref.isWhole_whole _) cc0_scratch2 cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d : Dev nD, Cert.Spec.InRange (m (iLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (hpre d) O W hO).trans (wp_mono frame _ _ fun _ => obl_post)

end Tile

end Cert.Proof.KB

end
-- ==== Proof.KbLaunch.lean ====
/-
  The launch of the row gather. On every device the TensorCore cuts the row numbers and the result into
  their 32 blocks, deals each of the two cores its sixteen blocks of each and a read token of the table,
  starts the cores and waits for them; each core's sequencer deals tile `s` the blocks `2 s + c` and a
  read token of the core's token, and takes them back. Every tile brings its block of the result back at
  the ONE function `Gd` of the arguments, so the 32 blocks join to the whole result at that function, the
  read tokens join back to the table's full share, and the final memory reads: the result is the table's
  rows the row numbers name, the arguments are unchanged.
-/
import proofs.«217002_g82145544504098_cont_9to1_m_222_7_alg».proof.Proof.KbPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) (ρ : Dev nD → PrngReg)

/-! ## The blocks split and join -/

theorem iRowSet_eq (w : Fin 32) : iRowSet w = (irow w).set := by
  show ((View.whole (main_arg0_scv : Ref sig .scVector)).slice (irow w)).set = _
  rw [View.set_slice]; exact Finset.map_refl
theorem oRowSet_eq (w : Fin 32) : oRowSet w = (orow w).set := by
  show ((View.whole (main_v0_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The row numbers whole are their 32 blocks. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The result whole, at one function, is its 32 blocks at that function. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- A block number is a core and a tile: block `2 s + c` is tile `s` of core `c`. -/
def blkEquiv : Fin 2 × Fin 16 ≃ Fin 32 where
  toFun p := blk p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

/-- Over the 32 blocks is over the two cores, each over its sixteen tiles. -/
theorem bigSep_blocks (Φ : Fin 32 → sProp 𝕄) :
    bigSep Finset.univ Φ = bigSep Finset.univ fun c : Fin 2 => bigSep Finset.univ fun s : Fin 16 => Φ (blk c s) := by
  rw [bigSep_univ_equiv blkEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A core's operands split among its tiles -/

/-- Core `c`'s read token of the table is sixteen tile tokens and a remainder; the remainder waits inside
    the wand that takes the tiles' blocks and tokens back and rebuilds the core's token. -/
theorem vecSplit_core (d : Dev nD) (c : Fin 2) :
    stRes m d c ⊢ |={Set.univ}=> iprop((bigSep Finset.univ fun s : Fin 16 => goRes m d c s)
      ∗ ((bigSep Finset.univ fun s : Fin 16 => tdRes m d c s) -∗ dnRes m d c)) := by
  unfold stRes dnRes goRes tdRes
  simp only [bigSep_sep']
  iintro ⟨Hx, Hi, Ho⟩
  ihave Hx' := (Transfers.pointsTo_toks_split (ℓ := xLoc d) (S := Finset.univ) (f := m (xLoc d)) (Transfers.shareTokN fullShare c.val) 16) $$ Hx
  icases Hx' with ⟨Hrem, Htoks⟩
  imodintro
  isplitl [Hi Htoks Ho]
  · isplitl [Hi]; · iexact Hi
    isplitl [Htoks]; · iexact Htoks
    iexact Ho
  iintro ⟨Hi, Htoks, Ho⟩
  isplitl [Hrem Htoks]
  · iapply (Transfers.pointsTo_toks_join (ℓ := xLoc d) (S := Finset.univ) (f := m (xLoc d)) (Transfers.shareTokN fullShare c.val) 16)
    isplitl [Hrem]; · iexact Hrem
    iexact Htoks
  isplitl [Hi]; · iexact Hi
  iexact Ho

/-- How a core's operands split into its tiles' and its results gather from theirs. -/
theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun s => goRes m d (Fin.cast nCore_zero c) s),
    bigSep_tasks (F := F) (fun s => tdRes m d (Fin.cast nCore_zero c) s)]
  exact vecSplit_core m d (Fin.cast nCore_zero c)

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore keeps of the table while the cores run: the remainder after the two core tokens. -/
abbrev xRem (d : Dev nD) : sProp 𝕄 := xLoc d ↦{Transfers.shareDrop fullShare 2} m (xLoc d)

/-- What a core holds with the result's blocks at `f`: its token and its sixteen blocks of each array. -/
abbrev coreRes (d : Dev nD) (c : Fin 2) (f : Buf (Elt F) (oLoc d)) : sProp 𝕄 :=
  iprop(xCorePts m d c ∗ bigSep Finset.univ fun s : Fin 16 => iprop(iRowPts m d (blk c s) ∗ oRowPts d (blk c s) f))

/-- The two cores' holdings, the result's blocks all at one function `f`: the two tokens, the row numbers whole and
    the result whole at `f`. -/
theorem cores_eq (d : Dev nD) (f : Buf (Elt F) (oLoc d)) :
    (bigSep Finset.univ fun c : Fin 2 => coreRes m d c f)
      = iprop((bigSep Finset.univ fun c : Fin 2 => xCorePts m d c) ∗ iPts m d ∗ oPts d f) := by
  have h := bigSep_blocks (F := F) (fun w => iprop(iRowPts m d w ∗ oRowPts d w f))
  beta_reduce at h
  unfold coreRes
  rw [bigSep_sep', ← h, bigSep_sep']
  unfold iPts oPts iRowPts oRowPts
  rw [← iPts_rows, ← oPts_rows]

theorem deal (d : Dev nD) (f : Buf (Elt F) (oLoc d)) :
    iprop(iPts m d ∗ xPts m d ∗ oPts d f) ⊢ iprop(xRem m d ∗ bigSep Finset.univ fun c : Fin 2 => coreRes m d c f) := by
  rw [cores_eq]
  iintro ⟨Hi, Hx, Ho⟩
  ihave Hx' := (Transfers.pointsTo_toks_split (ℓ := xLoc d) (S := Finset.univ) (f := m (xLoc d)) fullShare 2) $$ Hx
  icases Hx' with ⟨Hrem, Htoks⟩
  isplitl [Hrem]; · iexact Hrem
  isplitl [Htoks]; · iexact Htoks
  isplitl [Hi]; · iexact Hi
  iexact Ho

theorem collect (d : Dev nD) (f : Buf (Elt F) (oLoc d)) :
    iprop(xRem m d ∗ bigSep Finset.univ fun c : Fin 2 => coreRes m d c f) ⊢ iprop(iPts m d ∗ xPts m d ∗ oPts d f) := by
  rw [cores_eq]
  iintro ⟨Hrem, Htoks, Hi, Ho⟩
  isplitl [Hi]; · iexact Hi
  isplitl [Hrem Htoks]
  · iapply (Transfers.pointsTo_toks_join (ℓ := xLoc d) (S := Finset.univ) (f := m (xLoc d)) fullShare 2)
    isplitl [Hrem]; · iexact Hrem
    iexact Htoks
  iexact Ho

theorem st0_eq (d : Dev nD) :
    (bigSep Finset.univ fun c : Fin ((K (F := F)).nCore 0) => (P m).st 0 d c) = bigSep Finset.univ fun c : Fin 2 => coreRes m d c (m (oLoc d)) :=
  bigSep_cores (F := F) (fun c => coreRes m d c (m (oLoc d)))
theorem dn0_eq (d : Dev nD) :
    (bigSep Finset.univ fun c : Fin ((K (F := F)).nCore 0) => (P m).dn 0 d c) = bigSep Finset.univ fun c : Fin 2 => coreRes m d c (Gd m d) :=
  bigSep_cores (F := F) (fun c => coreRes m d c (Gd m d))

/-- What @main ends holding: the three arrays whole, the result at the one function of the arguments. -/
abbrev FIN (d : Dev nD) : sProp 𝕄 := iprop(iPts m d ∗ xPts m d ∗ oPts d (Gd m d))

variable [FloatOps F]

/-- @main on device `d`'s TensorCore: the one call, from the three arrays whole; they come back whole, the result
    at the table's rows the row numbers name. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hd := (deal m d (m (oLoc d))) $$ [Hi Hx Ho]
  · isplitl [Hi]; · iexact Hi
    isplitl [Hx]; · iexact Hx
    iexact Ho
  icases Hd with ⟨Hrem, Hcores⟩
  iapply ((K (F := F)).wp_run (D (F := F)) 𝒱 (EH := EH) (P := P m) κ d 0) $$ [Hst Hcores Hrem]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hfin := (collect m d (Gd m d)) $$ [Hrem Hdn']
  · isplitl [Hrem]; · iexact Hrem
    iexact Hdn'
  imodintro
  isplitl [Hst]; · iexact Hst
  iexact Hfin

/-! ## The final memory -/

def fq (d : Dev nD) (s' : Phys nD τ sig (Elt F)) : Prop :=
  s'.mem.mem (iLoc d) = m (iLoc d) ∧ s'.mem.mem (xLoc d) = m (xLoc d) ∧ s'.mem.mem (oLoc d) = Gd m d

omit [FloatOps F] in
set_option maxRecDepth 16384 in
/-- The three arrays held whole say what the final memory holds at them. -/
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := Gd m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device: the result is the table's rows the row numbers name; the arguments are unchanged. -/
def QC : PUnit × MemSt nD τ sig (Elt F) → Prop := fun r => ∀ c : Dev nD,
  r.2.mem (oLoc c) = Gd m c ∧ r.2.mem (iLoc c) = m (iLoc c) ∧ r.2.mem (xLoc c) = m (xLoc c)

/-- Given the tile's task proved, every weakly fair execution of the program's threads from `m` terminates and ends
    with the result at the one function of the arguments and the arguments unchanged. -/
theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KB

end
-- ==== Proof.lean ====
/-
  The certificate's claim for a row gather: `out[r] = table[idx[r]]` for 4096 row numbers and a table of
  100001 rows of 128 entries.

  The kernel runs on the thirty-two vector subcores of the device's two SparseCores: subcore `s` of core `c`
  owns rows `128 (2 s + c) … + 127`, fetches their row numbers, gathers the rows they name and copies them
  out. Its run (terminates, faults nowhere, arguments unchanged, the result array at the function
  `Cert.Spec.rowGather` of the arguments) is proved once, generic in the float instance, from one tile's
  task and the launch; the three frames are that run, or the reference's, with the value dropped. The
  reference takes the same rows on the host; with every row number inside the table (the precondition) its
  wrap of negative numbers, its clamp and its out-of-range mask all leave the row number alone, so it ends at
  the same function. Nothing is computed on the entries: the two results are equal at every instance of the
  floats, in particular as extended reals. The idealization rewrote nothing, so `preserves` is trivial.
-/
import proofs.«217002_g82145544504098_cont_9to1_m_222_7_alg».proof.Defs
import proofs.«217002_g82145544504098_cont_9to1_m_222_7_alg».proof.Proof.Gen.Kernel
import proofs.«217002_g82145544504098_cont_9to1_m_222_7_alg».proof.Proof.Gen.Kernel.Skeleton
import proofs.«217002_g82145544504098_cont_9to1_m_222_7_alg».proof.Proof.Gen.KernelIdeal
import proofs.«217002_g82145544504098_cont_9to1_m_222_7_alg».proof.Proof.Gen.KernelIdeal.Skeleton
import proofs.«217002_g82145544504098_cont_9to1_m_222_7_alg».proof.Proof.Gen.ReferenceIdeal
import proofs.«217002_g82145544504098_cont_9to1_m_222_7_alg».proof.Proof.Gen.Pre_input_domain
import proofs.«217002_g82145544504098_cont_9to1_m_222_7_alg».proof.Proof.PreRange
import proofs.«217002_g82145544504098_cont_9to1_m_222_7_alg».proof.Proof.RefRun
import proofs.«217002_g82145544504098_cont_9to1_m_222_7_alg».proof.Proof.KiTile
import proofs.«217002_g82145544504098_cont_9to1_m_222_7_alg».proof.Proof.KiLaunch
import proofs.«217002_g82145544504098_cont_9to1_m_222_7_alg».proof.Proof.KbTile
import proofs.«217002_g82145544504098_cont_9to1_m_222_7_alg».proof.Proof.KbLaunch
import Idealize.ShloMosaic.Adequacy
import Idealize.ShloMosaic.Init

noncomputable section

namespace Cert.Proof

open Idealize.ShloMosaic Idealize.SL.Sem

/-- Under the precondition every row number of the word-level kernel's argument is inside the table, -/
theorem inRange_kernel (m : (ℓ : Loc Cert.Kernel.nD Cert.Kernel.τ Cert.Kernel.sig) → Buf (Elt Bits) ℓ)
    (h : Cert.Pre_Kernel (hPre_input_domain := Cert.Pre_input_domain.Gen.facts) m) :
    ∀ d : Dev Cert.Kernel.nD, Cert.Spec.InRange (m (KB.iLoc d)) :=
  fun d => Cert.PreRange.inRange_of_pre (hP := Cert.Pre_input_domain.Gen.facts) _ _ (h d)

/-- and of the idealized kernel's. -/
theorem inRange_kernelIdeal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) :
    ∀ d : Dev Cert.KernelIdeal.nD, Cert.Spec.InRange (m (KI.iLoc d)) :=
  fun d => Cert.PreRange.inRange_of_pre (hP := Cert.Pre_input_domain.Gen.facts) _ _ (h d)

theorem frame_k : Cert.frame_Kernel (hKernel := Cert.Kernel.Gen.facts) (hPre_input_domain := Cert.Pre_input_domain.Gen.facts) :=
  fun m ρ hpre => (θ_run (Cert.Kernel.defs (F := Bits)) _ _).mono (fun _ h c => ⟨(h c).2.1, (h c).2.2⟩)
    (KB.run_main (F := Bits) m ρ (KB.tileObl m KB.facts (inRange_kernel m hpre)))

theorem frame_ki : Cert.frame_KernelIdeal (hKernelIdeal := Cert.KernelIdeal.Gen.facts) (hPre_input_domain := Cert.Pre_input_domain.Gen.facts) :=
  fun m ρ hpre => (θ_run (Cert.KernelIdeal.defs (F := Ideal)) _ _).mono (fun _ h c => ⟨(h c).2.1, (h c).2.2⟩)
    (KI.run_main (F := Ideal) m ρ (KI.tileObl m KI.facts (inRange_kernelIdeal m hpre)))

theorem frame_ri : Cert.frame_ReferenceIdeal (hReferenceIdeal := Cert.ReferenceIdeal.Gen.facts) (hPre_input_domain := Cert.Pre_input_domain.Gen.facts) :=
  fun m ρ hpre => (θ_run (Cert.ReferenceIdeal.defs (F := Ideal)) _ _).mono (fun _ h c => (h c).2)
    (Cert.ReferenceIdeal.RefValue.run (hR := Cert.ReferenceIdeal.Gen.facts) m ρ
      (fun c => Cert.PreRange.inRange_of_pre (hP := Cert.Pre_input_domain.Gen.facts) _ _ (hpre c)))

/-- From memories that agree on the arguments both programs end with the result array at the row gather of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hr := inRange_kernelIdeal m hpre
  refine ⟨fun c => KI.Gd m c, KI.run_main (F := Ideal) m ρ (KI.tileObl m KI.facts hr), ?_⟩
  refine (θ_run (Cert.ReferenceIdeal.defs (F := Ideal)) _ _).mono (fun _ h c => ⟨(h c).1.trans ?_, (h c).2⟩)
    (Cert.ReferenceIdeal.RefValue.run (hR := Cert.ReferenceIdeal.Gen.facts) m' ρ' (fun c => by rw [(hagree c).1]; exact hr c))
  rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
